-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x8 : Shape := ⟨2, ![4096, 8]⟩
abbrev S4096x2 : Shape := ⟨2, ![4096, 2]⟩
abbrev S8x4096x1024 : Shape := ⟨3, ![8, 4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x2 : S_.BroadcastsInDim S4096x2 (![] : Fin 0 → Fin S4096x2.rank)
  reducesTo_S4096x2_S_d0_1 : S4096x2.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_arg5 : FVec F S8x4096x1024 .f32) (main_arg6 : FVec F S8x4096x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_v24 : FVec F S8x4096x1024 .f32 := Host.absf main_arg6
  let main_cst_8 : FVec F S_ .f32 := constant S_ .f32 0x7F800000#32
  let main_v25 : FVec F S8x4096x1024 .f32 := broadcastInDim S8x4096x1024 ![] bcast_S_S8x4096x1024 main_cst_8
  let main_v26 : IVec S8x4096x1024 1 := cmpf .olt main_v24 main_v25
  let main_c_9 : IVec S_ 1 := constantI S_ 1 1#1
  let main_v27 : IVec S_ 1 := (fun x v => Host.reduce IntOp.andi x v reducesTo_S8x4096x1024_S_d0_1_2 h_S_) main_v26 main_c_9
  let main_v28 : IVec S_ 1 := andi main_v23 main_v27
  main_v28

def fn {F : FTy → Type} [FloatOps F] (main_arg0 : FVec F S4096x1024 .f32) (main_arg1 : FVec F S4096x8 .f32) (main_arg2 : FVec F S4096x2 .f32) (main_arg3 : IVec S4096x2 32) (main_arg4 : FVec F S8x4096x1024 .f32) (main_arg5 : FVec F S8x4096x1024 .f32) (main_arg6 : FVec F S8x4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x2 .f32 := Host.absf main_arg2
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg5 main_arg6 main_v13 main_v16
-- ==== Kernel.lean ====
abbrev S4096x1024 : Shape := ⟨2, ![4096, 1024]⟩
abbrev S4096x8 : Shape := ⟨2, ![4096, 8]⟩
abbrev S4096x2 : Shape := ⟨2, ![4096, 2]⟩
abbrev S8x4096x1024 : Shape := ⟨3, ![8, 4096, 1024]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S4096x2x2 : Shape := ⟨3, ![4096, 2, 2]⟩
abbrev S8x4096 : Shape := ⟨2, ![8, 4096]⟩
abbrev S8x4096x1 : Shape := ⟨3, ![8, 4096, 1]⟩
abbrev S512x1024 : Shape := ⟨2, ![512, 1024]⟩
abbrev S1x1024x1024 : Shape := ⟨3, ![1, 1024, 1024]⟩
abbrev S1x512x1 : Shape := ⟨3, ![1, 512, 1]⟩
abbrev S1024x1024 : Shape := ⟨2, ![1024, 1024]⟩
abbrev S512x1 : Shape := ⟨2, ![512, 1]⟩

abbrev nBuf : Space → Nat
  | .hbm => 37
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x8, .f32⟩
  | .hbm, ⟨2, _⟩ => ⟨S4096x2, .f32⟩
  | .hbm, ⟨3, _⟩ => ⟨S4096x2, .i32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S4096x8, .f32⟩
  | .hbm, ⟨9, _⟩ => ⟨S4096, .i32⟩
  | .hbm, ⟨10, _⟩ => ⟨S4096x1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .i32⟩
  | .hbm, ⟨18, _⟩ => ⟨S_, .i32⟩
  | .hbm, ⟨19, _⟩ => ⟨S4096x2, .i32⟩
  | .hbm, ⟨20, _⟩ => ⟨S4096x2, .i1⟩
  | .hbm, ⟨21, _⟩ => ⟨S_, .i32⟩
  | .hbm, ⟨22, _⟩ => ⟨S4096x2, .i32⟩
  | .hbm, ⟨23, _⟩ => ⟨S4096x2, .i32⟩
  | .hbm, ⟨24, _⟩ => ⟨S4096x2, .i32⟩
  | .hbm, ⟨25, _⟩ => ⟨S4096x2, .i32⟩
  | .hbm, ⟨26, _⟩ => ⟨S4096x2x1, .i32⟩
  | .hbm, ⟨27, _⟩ => ⟨S4096x2x1, .i32⟩
  | .hbm, ⟨28, _⟩ => ⟨S4096x2x2, .i32⟩
  | .hbm, ⟨29, _⟩ => ⟨S4096x8, .f32⟩
  | .hbm, ⟨30, _⟩ => ⟨S8x4096, .f32⟩
  | .hbm, ⟨31, _⟩ => ⟨S8x4096x1, .f32⟩
  | .hbm, ⟨32, _⟩ => ⟨S4096x1024, .bf16⟩
  | .hbm, ⟨33, _⟩ => ⟨S8x4096x1024, .bf16⟩
  | .hbm, ⟨34, _⟩ => ⟨S8x4096x1024, .bf16⟩
  | .hbm, ⟨35, _⟩ => ⟨S8x4096x1024, .bf16⟩
  | .hbm, ⟨36, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1, .f32⟩
  | .local _ .vmem, ⟨9, _⟩ => ⟨S1x512x1, .f32⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S4096x8 : S_.BroadcastsInDim S4096x8 (![] : Fin 0 → Fin S4096x8.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2 : S_.BroadcastsInDim S4096x2 (![] : Fin 0 → Fin S4096x2.rank)
  bcast_S4096x1_S4096x2_0_1 : S4096x1.BroadcastsInDim S4096x2 (![0, 1] : Fin 2 → Fin S4096x2.rank)
  bcast_S4096x2_S4096x2x1_0_1 : S4096x2.BroadcastsInDim S4096x2x1 (![0, 1] : Fin 2 → Fin S4096x2x1.rank)
  concatenates_S4096x2x1_S4096x2x1_S4096x2x2_d2 : Shape.Concatenates [S4096x2x1, S4096x2x1] S4096x2x2 2
  transposes_S4096x8_S8x4096_1_0 : S4096x8.Transposes [1, 0] S8x4096
  bcast_S8x4096_S8x4096x1_0_1 : S8x4096.BroadcastsInDim S8x4096x1 (![0, 1] : Fin 2 → Fin S8x4096x1.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  scatter_S4096x8_S4096x2x2_S4096x2_n_01_01_2_wf : ScatterDims.WF S4096x8 S4096x2x2 S4096x2 [] [0, 1] [0, 1] 2
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .bf16 = 32 ∨ (Rect.block (s := S8x4096x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .bf16 = 32 ∨ (Rect.block (s := S8x4096x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .bf16 = 32 ∨ (Rect.block (s := S8x4096x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x4096x1.size a
  hwx0_4 : ∀ i : grid0.Coords, EltTy.bits .f32 = 32 ∨ (Rect.block (s := S8x4096x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)

variable [Facts₀]

def scatter_S4096x8_S4096x2x2_S4096x2_n_01_01_2 : ScatterDims S4096x8 S4096x2x2 S4096x2 where
  updateWindowDims := []
  insertedWindowDims := [0, 1]
  scatterDimsToOperandDims := [0, 1]
  indexVectorDim := 2
  wf := scatter_S4096x8_S4096x2x2_S4096x2_n_01_01_2_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v20) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x8 : Shape := ⟨2, ![4096, 8]⟩
abbrev S4096x2 : Shape := ⟨2, ![4096, 2]⟩
abbrev S8x4096x1024 : Shape := ⟨3, ![8, 4096, 1024]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S4096x2x2 : Shape := ⟨3, ![4096, 2, 2]⟩
abbrev S1x4096x1024 : Shape := ⟨3, ![1, 4096, 1024]⟩
abbrev S1024x4096 : Shape := ⟨2, ![1024, 4096]⟩
abbrev S4096x4096 : Shape := ⟨2, ![4096, 4096]⟩

abbrev nBuf : Space → Nat
  | .hbm => 232
  | .vmem => 0
  | .smem => 0
  | _ => 0

abbrev hbmTy0_0 (i : Nat) : BufTy := match i % 128 with
  | 0 => ⟨S4096x1024, .f32⟩
  | 1 => ⟨S4096x8, .f32⟩
  | 2 => ⟨S4096x2, .f32⟩
  | 3 => ⟨S4096x2, .i32⟩
  | 4 => ⟨S8x4096x1024, .f32⟩
  | 5 => ⟨S8x4096x1024, .f32⟩
  | 6 => ⟨S8x4096x1024, .f32⟩
  | 7 => ⟨S_, .f32⟩
  | 8 => ⟨S4096x8, .f32⟩
  | 9 => ⟨S4096, .i32⟩
  | 10 => ⟨S4096x1, .i32⟩
  | 11 => ⟨S_, .i32⟩
  | 12 => ⟨S4096x1, .i32⟩
  | 13 => ⟨S4096x1, .i1⟩
  | 14 => ⟨S_, .i32⟩
  | 15 => ⟨S4096x1, .i32⟩
  | 16 => ⟨S4096x1, .i32⟩
  | 17 => ⟨S4096x1, .i32⟩
  | 18 => ⟨S_, .i32⟩
  | 19 => ⟨S4096x2, .i32⟩
  | 20 => ⟨S4096x2, .i1⟩
  | 21 => ⟨S_, .i32⟩
  | 22 => ⟨S4096x2, .i32⟩
  | 23 => ⟨S4096x2, .i32⟩
  | 24 => ⟨S4096x2, .i32⟩
  | 25 => ⟨S4096x2, .i32⟩
  | 26 => ⟨S4096x2x1, .i32⟩
  | 27 => ⟨S4096x2x1, .i32⟩
  | 28 => ⟨S4096x2x2, .i32⟩
  | 29 => ⟨S4096x8, .f32⟩
  | 30 => ⟨S_, .f32⟩
  | 31 => ⟨S4096x1024, .f32⟩
  | 32 => ⟨S1x4096x1024, .f32⟩
  | 33 => ⟨S4096x1024, .f32⟩
  | 34 => ⟨S1024x4096, .f32⟩
  | 35 => ⟨S4096x4096, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S1x4096x1024, .f32⟩
  | 46 => ⟨S4096x1024, .f32⟩
  | 47 => ⟨S1024x4096, .f32⟩
  | 48 => ⟨S4096x4096, .f32⟩
  | 49 => ⟨S4096x4096, .f32⟩
  | 50 => ⟨S4096x1, .f32⟩
  | 51 => ⟨S1x4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S1x4096x1024, .f32⟩
  | 58 => ⟨S4096x1024, .f32⟩
  | 59 => ⟨S1024x4096, .f32⟩
  | 60 => ⟨S4096x4096, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S1x4096x1024, .f32⟩
  | 71 => ⟨S4096x1024, .f32⟩
  | 72 => ⟨S1024x4096, .f32⟩
  | 73 => ⟨S4096x4096, .f32⟩
  | 74 => ⟨S4096x4096, .f32⟩
  | 75 => ⟨S4096x1, .f32⟩
  | 76 => ⟨S1x4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S1x4096x1024, .f32⟩
  | 83 => ⟨S4096x1024, .f32⟩
  | 84 => ⟨S1024x4096, .f32⟩
  | 85 => ⟨S4096x4096, .f32⟩
  | 86 => ⟨S4096x4096, .f32⟩
  | 87 => ⟨S4096x4096, .f32⟩
  | 88 => ⟨S_, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S4096x4096, .f32⟩
  | 95 => ⟨S1x4096x1024, .f32⟩
  | 96 => ⟨S4096x1024, .f32⟩
  | 97 => ⟨S1024x4096, .f32⟩
  | 98 => ⟨S4096x4096, .f32⟩
  | 99 => ⟨S4096x4096, .f32⟩
  | 100 => ⟨S4096x1, .f32⟩
  | 101 => ⟨S1x4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S1x4096x1024, .f32⟩
  | 108 => ⟨S4096x1024, .f32⟩
  | 109 => ⟨S1024x4096, .f32⟩
  | 110 => ⟨S4096x4096, .f32⟩
  | 111 => ⟨S4096x4096, .f32⟩
  | 112 => ⟨S4096x4096, .f32⟩
  | 113 => ⟨S_, .f32⟩
  | 114 => ⟨S4096x4096, .f32⟩
  | 115 => ⟨S4096x4096, .f32⟩
  | 116 => ⟨S_, .f32⟩
  | 117 => ⟨S4096x4096, .f32⟩
  | 118 => ⟨S4096x4096, .f32⟩
  | 119 => ⟨S4096x4096, .f32⟩
  | 120 => ⟨S1x4096x1024, .f32⟩
  | 121 => ⟨S4096x1024, .f32⟩
  | 122 => ⟨S1024x4096, .f32⟩
  | 123 => ⟨S4096x4096, .f32⟩
  | 124 => ⟨S4096x4096, .f32⟩
  | 125 => ⟨S4096x1, .f32⟩
  | 126 => ⟨S1x4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1x4096x1024, .f32⟩
  | 5 => ⟨S4096x1024, .f32⟩
  | 6 => ⟨S1024x4096, .f32⟩
  | 7 => ⟨S4096x4096, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S1x4096x1024, .f32⟩
  | 18 => ⟨S4096x1024, .f32⟩
  | 19 => ⟨S1024x4096, .f32⟩
  | 20 => ⟨S4096x4096, .f32⟩
  | 21 => ⟨S4096x4096, .f32⟩
  | 22 => ⟨S4096x1, .f32⟩
  | 23 => ⟨S1x4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S1x4096x1024, .f32⟩
  | 30 => ⟨S4096x1024, .f32⟩
  | 31 => ⟨S1024x4096, .f32⟩
  | 32 => ⟨S4096x4096, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S4096x4096, .f32⟩
  | 42 => ⟨S1x4096x1024, .f32⟩
  | 43 => ⟨S4096x1024, .f32⟩
  | 44 => ⟨S1024x4096, .f32⟩
  | 45 => ⟨S4096x4096, .f32⟩
  | 46 => ⟨S4096x4096, .f32⟩
  | 47 => ⟨S4096x1, .f32⟩
  | 48 => ⟨S1x4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S1x4096x1024, .f32⟩
  | 55 => ⟨S4096x1024, .f32⟩
  | 56 => ⟨S1024x4096, .f32⟩
  | 57 => ⟨S4096x4096, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S4096x4096, .f32⟩
  | 67 => ⟨S1x4096x1024, .f32⟩
  | 68 => ⟨S4096x1024, .f32⟩
  | 69 => ⟨S1024x4096, .f32⟩
  | 70 => ⟨S4096x4096, .f32⟩
  | 71 => ⟨S4096x4096, .f32⟩
  | 72 => ⟨S4096x1, .f32⟩
  | 73 => ⟨S1x4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S1x4096x1024, .f32⟩
  | 80 => ⟨S4096x1024, .f32⟩
  | 81 => ⟨S1024x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .f32⟩
  | 88 => ⟨S_, .f32⟩
  | 89 => ⟨S4096x4096, .f32⟩
  | 90 => ⟨S4096x4096, .f32⟩
  | 91 => ⟨S4096x4096, .f32⟩
  | 92 => ⟨S1x4096x1024, .f32⟩
  | 93 => ⟨S4096x1024, .f32⟩
  | 94 => ⟨S1024x4096, .f32⟩
  | 95 => ⟨S4096x4096, .f32⟩
  | 96 => ⟨S4096x4096, .f32⟩
  | 97 => ⟨S4096x1, .f32⟩
  | 98 => ⟨S1x4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_call6_v0 : Ref sig .tc := ⟨.hbm, 186, rfl⟩
abbrev main_call6_v1 : Ref sig .tc := ⟨.hbm, 187, rfl⟩
abbrev main_call6_cst : Ref sig .tc := ⟨.hbm, 188, rfl⟩
abbrev main_call6_v2 : Ref sig .tc := ⟨.hbm, 189, rfl⟩
abbrev main_call6_v3 : Ref sig .tc := ⟨.hbm, 190, rfl⟩
abbrev main_call6_cst_0 : Ref sig .tc := ⟨.hbm, 191, rfl⟩
abbrev main_call6_v4 : Ref sig .tc := ⟨.hbm, 192, rfl⟩
abbrev main_call6_v5 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_call7_v0 : Ref sig .tc := ⟨.hbm, 211, rfl⟩
abbrev main_call7_v1 : Ref sig .tc := ⟨.hbm, 212, rfl⟩
abbrev main_call7_cst : Ref sig .tc := ⟨.hbm, 213, rfl⟩
abbrev main_call7_v2 : Ref sig .tc := ⟨.hbm, 214, rfl⟩
abbrev main_call7_v3 : Ref sig .tc := ⟨.hbm, 215, rfl⟩
abbrev main_call7_cst_0 : Ref sig .tc := ⟨.hbm, 216, rfl⟩
abbrev main_call7_v4 : Ref sig .tc := ⟨.hbm, 217, rfl⟩
abbrev main_call7_v5 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩

abbrev nD : Nat := 1
abbrev τ : Topo := Topo.v7x

variable {F : FTy → Type} [FloatOps F]

class Facts₀ : Prop where
  bcast_S_S4096x8 : S_.BroadcastsInDim S4096x8 (![] : Fin 0 → Fin S4096x8.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2 : S_.BroadcastsInDim S4096x2 (![] : Fin 0 → Fin S4096x2.rank)
  bcast_S4096x1_S4096x2_0_1 : S4096x1.BroadcastsInDim S4096x2 (![0, 1] : Fin 2 → Fin S4096x2.rank)
  bcast_S4096x2_S4096x2x1_0_1 : S4096x2.BroadcastsInDim S4096x2x1 (![0, 1] : Fin 2 → Fin S4096x2x1.rank)
  concatenates_S4096x2x1_S4096x2x1_S4096x2x2_d2 : Shape.Concatenates [S4096x2x1, S4096x2x1] S4096x2x2 2
  bcast_S_S4096x1024 : S_.BroadcastsInDim S4096x1024 (![] : Fin 0 → Fin S4096x1024.rank)
  slices_S8x4096x1024_S1x4096x1024_0_0_0 : S8x4096x1024.Slices ![0, 0, 0] S1x4096x1024
  shapeCasts_S1x4096x1024_S4096x1024 : S1x4096x1024.ShapeCasts S4096x1024
  transposes_S4096x1024_S1024x4096_1_0 : S4096x1024.Transposes [1, 0] S1024x4096
  bcast_S_S4096x4096 : S_.BroadcastsInDim S4096x4096 (![] : Fin 0 → Fin S4096x4096.rank)
  slices_S4096x8_S4096x1_0_0 : S4096x8.Slices ![0, 0] S4096x1
  bcast_S4096x1_S4096x1024_0_1 : S4096x1.BroadcastsInDim S4096x1024 (![0, 1] : Fin 2 → Fin S4096x1024.rank)
  slices_S8x4096x1024_S1x4096x1024_1_0_0 : S8x4096x1024.Slices ![1, 0, 0] S1x4096x1024
  slices_S4096x8_S4096x1_0_1 : S4096x8.Slices ![0, 1] S4096x1
  slices_S8x4096x1024_S1x4096x1024_2_0_0 : S8x4096x1024.Slices ![2, 0, 0] S1x4096x1024
  slices_S4096x8_S4096x1_0_2 : S4096x8.Slices ![0, 2] S4096x1
  slices_S8x4096x1024_S1x4096x1024_3_0_0 : S8x4096x1024.Slices ![3, 0, 0] S1x4096x1024
  slices_S4096x8_S4096x1_0_3 : S4096x8.Slices ![0, 3] S4096x1
  slices_S8x4096x1024_S1x4096x1024_4_0_0 : S8x4096x1024.Slices ![4, 0, 0] S1x4096x1024
  slices_S4096x8_S4096x1_0_4 : S4096x8.Slices ![0, 4] S4096x1
  slices_S8x4096x1024_S1x4096x1024_5_0_0 : S8x4096x1024.Slices ![5, 0, 0] S1x4096x1024
  slices_S4096x8_S4096x1_0_5 : S4096x8.Slices ![0, 5] S4096x1
  slices_S8x4096x1024_S1x4096x1024_6_0_0 : S8x4096x1024.Slices ![6, 0, 0] S1x4096x1024
  slices_S4096x8_S4096x1_0_6 : S4096x8.Slices ![0, 6] S4096x1
  slices_S8x4096x1024_S1x4096x1024_7_0_0 : S8x4096x1024.Slices ![7, 0, 0] S1x4096x1024
  slices_S4096x8_S4096x1_0_7 : S4096x8.Slices ![0, 7] S4096x1
  scatter_S4096x8_S4096x2x2_S4096x2_n_01_01_2_wf : ScatterDims.WF S4096x8 S4096x2x2 S4096x2 [] [0, 1] [0, 1] 2
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def scatter_S4096x8_S4096x2x2_S4096x2_n_01_01_2 : ScatterDims S4096x8 S4096x2x2 S4096x2 where
  updateWindowDims := []
  insertedWindowDims := [0, 1]
  scatterDimsToOperandDims := [0, 1]
  indexVectorDim := 2
  wf := scatter_S4096x8_S4096x2x2_S4096x2_n_01_01_2_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.Spec.lean ====
/-
  The mathematics of a dense mixture-of-experts layer with gated linear units, over the extended reals.

  For a token `t`, an expert `e` and a hidden unit `f`, the two projections of the token are
  `proj x w1 e t f = Σ_k x[t,k] · w1[e,f,k]` and `proj x v1 e t f`; the gated unit is
  `glu = (p · logistic p) · q` with `p`, `q` those two projections; the expert's output at column `h` is
  `full = Σ_f glu[e,t,f] · w2[e,f,h]`, and the layer's output is the gate-weighted sum of the experts' outputs,
  `Σ_e g[t,e] · full[e,t,h]`.

  Two ways of accumulating that sum are named here. `refOut` adds the eight experts' whole outputs one after the
  other to a zero. `kerOut` adds thirty-two pieces: the hidden units of each expert are cut into four tiles of 1024,
  `tile e fi = Σ_{f < 1024} glu[e,t,1024·fi+f] · w2[e,1024·fi+f,h]`, and piece `n` is `g[t, n/4] · tile (n/4) (n%4)`.
-/
import proofs.«161855_j16535624089676_1_alg».proof.Proof.LibReal
import Idealize.ShloMosaic.Lib.ValueIdx
import Idealize.ShloMosaic.PureOps.Ideal.Laws

noncomputable section

open scoped BigOperators

namespace Cert.Moe

open Idealize.ShloMosaic Idealize.ShloMosaic.ValueIdx

/-- Tokens by model columns: the activations `x` and the result. -/
abbrev TokHid : Shape := ⟨2, ![4096, 1024]⟩
/-- Experts by hidden units by model columns: each of the three weight arrays. -/
abbrev ExpW : Shape := ⟨3, ![8, 4096, 1024]⟩
/-- Tokens by experts: the gate table. -/
abbrev TokExp : Shape := ⟨2, ![4096, 8]⟩

/-- Token `t` projected on hidden unit `f` of expert `e`: `Σ_k x[t,k] · w[e,f,k]`. -/
def proj (x : TokHid.Idx → EReal) (w : ExpW.Idx → EReal) (e : Fin 8) (t : Fin 4096) (f : Fin 4096) : EReal :=
  ∑ k : Fin 1024, x (ix2 t k) * w (ix3 e f k)

/-- The gated linear unit: `(p · logistic p) · q` of the two projections. -/
def glu (x : TokHid.Idx → EReal) (w1 v1 : ExpW.Idx → EReal) (e : Fin 8) (t : Fin 4096) (f : Fin 4096) : EReal :=
  (proj x w1 e t f * Ideal.logistic (proj x w1 e t f)) * proj x v1 e t f

/-- Hidden unit `f` of tile `fi`: `1024 · fi + f`. -/
def hid (fi : Fin 4) (f : Fin 1024) : Fin 4096 := ⟨f.val + 1024 * fi.val, by have := fi.isLt; have := f.isLt; omega⟩

/-- One tile's share of expert `e`'s output at `(t, h)`. -/
def tile (x : TokHid.Idx → EReal) (w1 v1 w2 : ExpW.Idx → EReal) (e : Fin 8) (fi : Fin 4) (t : Fin 4096) (h : Fin 1024) : EReal :=
  ∑ f : Fin 1024, glu x w1 v1 e t (hid fi f) * w2 (ix3 e (hid fi f) h)

/-- Expert `e`'s whole output at `(t, h)`. -/
def full (x : TokHid.Idx → EReal) (w1 v1 w2 : ExpW.Idx → EReal) (e : Fin 8) (t : Fin 4096) (h : Fin 1024) : EReal :=
  ∑ f : Fin 4096, glu x w1 v1 e t f * w2 (ix3 e f h)

/-- The experts' gate-weighted outputs added one after the other to a zero. -/
def refOut (g : TokExp.Idx → EReal) (x : TokHid.Idx → EReal) (w1 v1 w2 : ExpW.Idx → EReal) (t : Fin 4096) (h : Fin 1024) : EReal :=
  ((((((((0 + g (ix2 t 0) * full x w1 v1 w2 0 t h) + g (ix2 t 1) * full x w1 v1 w2 1 t h) + g (ix2 t 2) * full x w1 v1 w2 2 t h)
    + g (ix2 t 3) * full x w1 v1 w2 3 t h) + g (ix2 t 4) * full x w1 v1 w2 4 t h) + g (ix2 t 5) * full x w1 v1 w2 5 t h)
    + g (ix2 t 6) * full x w1 v1 w2 6 t h) + g (ix2 t 7) * full x w1 v1 w2 7 t h)

/-- Piece `n` of the tiled accumulation: expert `n / 4`, tile `n % 4` (zero from 32 on). -/
def piece (g : TokExp.Idx → EReal) (x : TokHid.Idx → EReal) (w1 v1 w2 : ExpW.Idx → EReal) (t : Fin 4096) (h : Fin 1024) (n : ℕ) : EReal :=
  if hn : n < 32 then
    g (ix2 t ⟨n / 4, by omega⟩) * tile x w1 v1 w2 ⟨n / 4, by omega⟩ ⟨n % 4, by omega⟩ t h
  else 0

/-- The thirty-two pieces added to a zero. -/
def kerOut (g : TokExp.Idx → EReal) (x : TokHid.Idx → EReal) (w1 v1 w2 : ExpW.Idx → EReal) (t : Fin 4096) (h : Fin 1024) : EReal :=
  0 + ∑ n ∈ Finset.range 32, piece g x w1 v1 w2 t h n

end Cert.Moe

end
-- ==== Proof.Law.lean ====
/-
  The two accumulations of the gate-weighted expert outputs agree on real inputs.

  An expert's whole output is the sum of its four tiles' shares (the hidden units re-indexed as tile and offset), and the
  thirty-two pieces, indexed by expert and tile, are the gate times each tile's share. Over the extended reals a factor
  moves inside a finite sum when the factor and every summand are real numbers; the order of the additions does not
  matter there at all. So both accumulations are `0 + Σ_e Σ_fi g[t,e] · tile e fi`.
-/
import proofs.«161855_j16535624089676_1_alg».proof.Proof.Spec

noncomputable section

open scoped BigOperators

namespace Cert.Moe

open Idealize.ShloMosaic Idealize.ShloMosaic.ValueIdx Cert.LibReal

variable (g : TokExp.Idx → EReal) (x : TokHid.Idx → EReal) (w1 v1 w2 : ExpW.Idx → EReal)

/-- An expert's whole output is the sum of its four tiles' shares. -/
theorem full_eq_tiles (e : Fin 8) (t : Fin 4096) (h : Fin 1024) :
    full x w1 v1 w2 e t h = ∑ fi : Fin 4, tile x w1 v1 w2 e fi t h := by
  unfold full tile
  rw [← Equiv.sum_comp (finProdFinEquiv : Fin 4 × Fin 1024 ≃ Fin 4096), Fintype.sum_prod_type]
  rfl

theorem proj_real (w : ExpW.Idx → EReal) (hx : ∀ i, IsReal (x i)) (hw : ∀ i, IsReal (w i)) (e : Fin 8) (t f : Fin 4096) :
    IsReal (proj x w e t f) :=
  IsReal.sum _ _ fun k _ => (hx _).mul (hw _)

theorem glu_real (hx : ∀ i, IsReal (x i)) (hw1 : ∀ i, IsReal (w1 i)) (hv1 : ∀ i, IsReal (v1 i)) (e : Fin 8) (t f : Fin 4096) :
    IsReal (glu x w1 v1 e t f) :=
  ((proj_real x w1 hx hw1 e t f).mul (proj_real x w1 hx hw1 e t f).logistic).mul (proj_real x v1 hx hv1 e t f)

theorem tile_real (hx : ∀ i, IsReal (x i)) (hw1 : ∀ i, IsReal (w1 i)) (hv1 : ∀ i, IsReal (v1 i)) (hw2 : ∀ i, IsReal (w2 i))
    (e : Fin 8) (fi : Fin 4) (t : Fin 4096) (h : Fin 1024) : IsReal (tile x w1 v1 w2 e fi t h) :=
  IsReal.sum _ _ fun f _ => (glu_real x w1 v1 hx hw1 hv1 e t _).mul (hw2 _)

/-- The thirty-two pieces, indexed by expert and tile. -/
theorem sum_pieces (t : Fin 4096) (h : Fin 1024) :
    ∑ n ∈ Finset.range 32, piece g x w1 v1 w2 t h n = ∑ e : Fin 8, ∑ fi : Fin 4, g (ix2 t e) * tile x w1 v1 w2 e fi t h := by
  rw [Finset.sum_range, ← Equiv.sum_comp (finProdFinEquiv : Fin 8 × Fin 4 ≃ Fin 32), Fintype.sum_prod_type]
  refine Finset.sum_congr rfl fun e _ => Finset.sum_congr rfl fun fi _ => ?_
  have key : ∀ (n : ℕ) (hn : n < 32), n / 4 = e.val → n % 4 = fi.val →
      piece g x w1 v1 w2 t h n = g (ix2 t e) * tile x w1 v1 w2 e fi t h := by
    intro n hn h1 h2
    unfold piece
    rw [dif_pos hn]
    have e1 : (⟨n / 4, by omega⟩ : Fin 8) = e := Fin.ext h1
    have e2 : (⟨n % 4, by omega⟩ : Fin 4) = fi := Fin.ext h2
    rw [e1, e2]
  have hv : ((finProdFinEquiv (e, fi) : Fin 32) : ℕ) = fi.val + 4 * e.val := rfl
  have he := e.isLt
  have hf := fi.isLt
  exact key _ (by omega) (by rw [hv]; omega) (by rw [hv]; omega)

/-- On real inputs the tiled accumulation is the expert-by-expert one. -/
theorem kerOut_eq_refOut (hg : ∀ i, IsReal (g i)) (hx : ∀ i, IsReal (x i)) (hw1 : ∀ i, IsReal (w1 i)) (hv1 : ∀ i, IsReal (v1 i))
    (hw2 : ∀ i, IsReal (w2 i)) (t : Fin 4096) (h : Fin 1024) :
    kerOut g x w1 v1 w2 t h = refOut g x w1 v1 w2 t h := by
  have hr : refOut g x w1 v1 w2 t h = 0 + ∑ e : Fin 8, g (ix2 t e) * full x w1 v1 w2 e t h := by
    unfold refOut
    rw [Fin.sum_univ_eight]
    simp only [add_assoc]
  rw [hr, kerOut, sum_pieces]
  congr 1
  refine Finset.sum_congr rfl fun e _ => ?_
  rw [full_eq_tiles, mul_sum_of_real _ _ _ (hg _) (fun fi _ => tile_real x w1 v1 w2 hx hw1 hv1 hw2 e fi t h)]

end Cert.Moe

end
-- ==== Proof.Finite.lean ====
/-
  Finiteness of the inputs. The certificate's precondition says, of each float argument, that the absolute value of
  every element is below plus infinity; an extended real whose absolute value is below plus infinity is a real number.
-/
import proofs.«161855_j16535624089676_1_alg».proof.Pre_finite_inputs
import proofs.«161855_j16535624089676_1_alg».proof.Proof.Spec
import Idealize.ShloMosaic.Lib.ReduceAll
import Idealize.ShloMosaic.PureOps.Ideal

noncomputable section

open scoped BigOperators

namespace Cert.Moe.Fin

open Idealize.ShloMosaic Cert.LibReal

/-- The certificate's precondition says every element of the activations, of the gate values and of the three
    weight arrays is a real number: each conjunct is an all-reduce by "and" of the elementwise comparison
    of the absolute value against plus infinity. -/
theorem real_of_pre [Cert.Pre_finite_inputs.Facts]
    (a0 : FVec Ideal Cert.Pre_finite_inputs.S4096x1024 .f32) (a1 : FVec Ideal Cert.Pre_finite_inputs.S4096x8 .f32)
    (a2 : FVec Ideal Cert.Pre_finite_inputs.S4096x2 .f32) (a3 : IVec Cert.Pre_finite_inputs.S4096x2 32)
    (a4 a5 a6 : FVec Ideal Cert.Pre_finite_inputs.S8x4096x1024 .f32)
    (h : Cert.Pre_finite_inputs.fn (F := Ideal) a0 a1 a2 a3 a4 a5 a6 = (fun _ => 1#1)) :
    (∀ i, IsReal (a0 i)) ∧ (∀ i, IsReal (a2 i)) ∧ (∀ i, IsReal (a4 i))
      ∧ (∀ i, IsReal (a5 i)) ∧ (∀ i, IsReal (a6 i)) := by
  have h0 := congrFun h ValueIdx.ix0
  dsimp only [Cert.Pre_finite_inputs.fn, Cert.Pre_finite_inputs.fn_part1, andi] at h0
  simp only [IntOp.andi_eq_one] at h0
  obtain ⟨⟨⟨⟨⟨e0, _⟩, e2⟩, e4⟩, e5⟩, e6⟩ := h0
  exact ⟨fun i => elem_real _ a0 i (Host.reduce_andi_all _ _ _ _ _ e0 i),
    fun i => elem_real _ a2 i (Host.reduce_andi_all _ _ _ _ _ e2 i),
    fun i => elem_real _ a4 i (Host.reduce_andi_all _ _ _ _ _ e4 i),
    fun i => elem_real _ a5 i (Host.reduce_andi_all _ _ _ _ _ e5 i),
    fun i => elem_real _ a6 i (Host.reduce_andi_all _ _ _ _ _ e6 i)⟩

end Cert.Moe.Fin

end
-- ==== Proof.RefRead.lean ====
/-
  The reference program read index by index.

  The reference adds, for the experts 0 to 7 in turn, `gate[t, e] · full e t h` to an output that starts as zero, where
  `full e t h = Σ_f glu e t f · w2[e, f, h]`, `glu = (p · logistic p) · q`, and `p`, `q` are the token's projections
  `Σ_k x[t, k] · w[e, f, k]` on the expert's two first-layer weight arrays. Each expert's weights are cut out of the
  stacked arrays by a slice, a reshape and (for the first layer) a transpose, which only rename indices. For each expert
  there are five short lemmas: the two projections, the gated unit, the expert's whole output, and the running sum after
  that expert. `ref_value` chains the eight running sums. The gate table is kept as the reference computes it.
-/
import proofs.«161855_j16535624089676_1_alg».proof.Proof.Gen.ReferenceIdeal.Read
import proofs.«161855_j16535624089676_1_alg».proof.Proof.Spec
import Idealize.ShloMosaic.Lib.IdealHost

noncomputable section

open scoped BigOperators

namespace Cert.Moe.Ref

open Cert.ReferenceIdeal Cert.ReferenceIdeal.Gen Cert.ReferenceIdeal.Read Idealize.ShloMosaic Idealize.ShloMosaic.ValueIdx

/-- The reference spells `x · logistic x` as `x · (1 / (1 + exp (−x)))` with its own division, sum, exponential and negation;
    over the extended reals that is `x · logistic x` by the definition of `logistic`. -/
theorem silu_eq (p : EReal) :
    FloatOps.mulf (F := Ideal) (φ := .f32) p
      (FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) .exp (φ := .f32) (FloatOps.hostNegf (F := Ideal) (φ := .f32) p))))
      = p * Ideal.logistic p := by
  simp only [Ideal.mulf_def, Ideal.hostDivf_def, Ideal.addf_def, Ideal.hostUnary_exp_def, Ideal.hostNegf_def, Ideal.negf_def,
    Ideal.ofBits_def, Ideal.ofBits_one_f32]
  rfl

/-! ### Expert 0 -/

/-- Token `t` against hidden unit `f` of expert 0's first weights: the slice, the reshape and the transpose only rename the index. -/
theorem proj_w1_0 (x0 : (⟨S4096x1024, .f32⟩ : BufTy).Contents (Elt Ideal)) (x4 : (⟨S8x4096x1024, .f32⟩ : BufTy).Contents (Elt Ideal))
    (t f : Fin 4096) :
    val_main_v22 (F := Ideal) x0 x4 (ix2 t f) = proj x0 x4 0 t f := by
  rw [val_main_v22_apply]
  unfold proj
  refine Finset.sum_congr rfl fun k _ => ?_
  rw [val_main_v21_apply, val_main_v20_apply, val_main_v19_apply]
  have e1 : lidx_main_v22 (ix2 t f) k = ix2 t k :=
    funext fun a => Fin.ext (by match a with | ⟨0, _⟩ => rfl | ⟨1, _⟩ => rfl)
  have e2 : idx_main_v19 (idx_main_v20 (idx_main_v21 (ridx_main_v22 (ix2 t f) k))) = ix3 0 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 0's second weights: the slice, the reshape and the transpose only rename the index. -/
theorem proj_v1_0 (x0 : (⟨S4096x1024, .f32⟩ : BufTy).Contents (Elt Ideal)) (x5 : (⟨S8x4096x1024, .f32⟩ : BufTy).Contents (Elt Ideal))
    (t f : Fin 4096) :
    val_main_v27 (F := Ideal) x0 x5 (ix2 t f) = proj x0 x5 0 t f := by
  rw [val_main_v27_apply]
  unfold proj
  refine Finset.sum_congr rfl fun k _ => ?_
  rw [val_main_v26_apply, val_main_v25_apply, val_main_v24_apply]
  have e1 : lidx_main_v27 (ix2 t f) k = ix2 t k :=
    funext fun a => Fin.ext (by match a with | ⟨0, _⟩ => rfl | ⟨1, _⟩ => rfl)
  have e2 : idx_main_v24 (idx_main_v25 (idx_main_v26 (ridx_main_v27 (ix2 t f) k))) = ix3 0 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 0's gated unit at `(t, f)`. -/
theorem glu_0 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v28 (F := Ideal) x0 x4 x5 (ix2 t f) = glu x0 x4 x5 0 t f := by
  rw [val_main_v28_apply, val_main_v23_apply, val_main_call0_v5_apply, val_main_call0_v4_apply, val_main_call0_cst_0_apply,
    val_main_call0_v3_apply, val_main_call0_v2_apply, val_main_call0_cst_apply, val_main_call0_v1_apply, val_main_call0_v0_apply,
    silu_eq, proj_w1_0, proj_v1_0]
  rfl

/-- Expert 0's whole output at `(t, h)`: the sum over the hidden units of the gated unit times the third weights. -/
theorem full_0 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v32 (F := Ideal) x0 x4 x5 x6 (ix2 t h) = full x0 x4 x5 x6 0 t h := by
  rw [val_main_v32_apply]
  unfold full
  refine Finset.sum_congr rfl fun f _ => ?_
  rw [val_main_v31_apply, val_main_v30_apply]
  have e1 : lidx_main_v32 (ix2 t h) f = ix2 t f :=
    funext fun a => Fin.ext (by match a with | ⟨0, _⟩ => rfl | ⟨1, _⟩ => rfl)
  have e2 : idx_main_v30 (idx_main_v31 (ridx_main_v32 (ix2 t h) f)) = ix3 0 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_0]

/-- The running output after expert 0: what was there before plus the gate of expert 0 times its whole output. -/
theorem step_0 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v35 (F := Ideal) x0 x2 x3 x4 x5 x6 (ix2 t h)
      = 0 + val_main_v17 (F := Ideal) x2 x3 (ix2 t 0) * full x0 x4 x5 x6 0 t h := by
  rw [val_main_v35_apply, val_main_v18_apply, val_main_cst_3_apply, val_main_v34_apply, val_main_v33_apply, val_main_v29_apply, full_0]
  have e1 : idx_main_v29 (idx_main_v33 (ix2 t h)) = ix2 t 0 :=
    funext fun a => Fin.ext (by match a with | ⟨0, _⟩ => rfl | ⟨1, _⟩ => rfl)
  rw [e1]
  simp only [Ideal.addf_def, Ideal.mulf_def, Ideal.ofBits_def, Ideal.ofBits_zero_f32]

/-! ### Expert 1 -/

/-- Token `t` against hidden unit `f` of expert 1's first weights: the slice, the reshape and the transpose only rename the index. -/
theorem proj_w1_1 (x0 : (⟨S4096x1024, .f32⟩ : BufTy).Contents (Elt Ideal)) (x4 : (⟨S8x4096x1024, .f32⟩ : BufTy).Contents (Elt Ideal))
    (t f : Fin 4096) :
    val_main_v39 (F := Ideal) x0 x4 (ix2 t f) = proj x0 x4 1 t f := by
  rw [val_main_v39_apply]
  unfold proj
  refine Finset.sum_congr rfl fun k _ => ?_
  rw [val_main_v38_apply, val_main_v37_apply, val_main_v36_apply]
  have e1 : lidx_main_v39 (ix2 t f) k = ix2 t k :=
    funext fun a => Fin.ext (by match a with | ⟨0, _⟩ => rfl | ⟨1, _⟩ => rfl)
  have e2 : idx_main_v36 (idx_main_v37 (idx_main_v38 (ridx_main_v39 (ix2 t f) k))) = ix3 1 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 1's second weights: the slice, the reshape and the transpose only rename the index. -/
theorem proj_v1_1 (x0 : (⟨S4096x1024, .f32⟩ : BufTy).Contents (Elt Ideal)) (x5 : (⟨S8x4096x1024, .f32⟩ : BufTy).Contents (Elt Ideal))
    (t f : Fin 4096) :
    val_main_v44 (F := Ideal) x0 x5 (ix2 t f) = proj x0 x5 1 t f := by
  rw [val_main_v44_apply]
  unfold proj
  refine Finset.sum_congr rfl fun k _ => ?_
  rw [val_main_v43_apply, val_main_v42_apply, val_main_v41_apply]
  have e1 : lidx_main_v44 (ix2 t f) k = ix2 t k :=
    funext fun a => Fin.ext (by match a with | ⟨0, _⟩ => rfl | ⟨1, _⟩ => rfl)
  have e2 : idx_main_v41 (idx_main_v42 (idx_main_v43 (ridx_main_v44 (ix2 t f) k))) = ix3 1 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 1's gated unit at `(t, f)`. -/
theorem glu_1 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v45 (F := Ideal) x0 x4 x5 (ix2 t f) = glu x0 x4 x5 1 t f := by
  rw [val_main_v45_apply, val_main_v40_apply, val_main_call1_v5_apply, val_main_call1_v4_apply, val_main_call1_cst_0_apply,
    val_main_call1_v3_apply, val_main_call1_v2_apply, val_main_call1_cst_apply, val_main_call1_v1_apply, val_main_call1_v0_apply,
    silu_eq, proj_w1_1, proj_v1_1]
  rfl

/-- Expert 1's whole output at `(t, h)`: the sum over the hidden units of the gated unit times the third weights. -/
theorem full_1 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v49 (F := Ideal) x0 x4 x5 x6 (ix2 t h) = full x0 x4 x5 x6 1 t h := by
  rw [val_main_v49_apply]
  unfold full
  refine Finset.sum_congr rfl fun f _ => ?_
  rw [val_main_v48_apply, val_main_v47_apply]
  have e1 : lidx_main_v49 (ix2 t h) f = ix2 t f :=
    funext fun a => Fin.ext (by match a with | ⟨0, _⟩ => rfl | ⟨1, _⟩ => rfl)
  have e2 : idx_main_v47 (idx_main_v48 (ridx_main_v49 (ix2 t h) f)) = ix3 1 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_1]

/-- The running output after expert 1: what was there before plus the gate of expert 1 times its whole output. -/
theorem step_1 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v52 (F := Ideal) x0 x2 x3 x4 x5 x6 (ix2 t h)
      = val_main_v35 (F := Ideal) x0 x2 x3 x4 x5 x6 (ix2 t h) + val_main_v17 (F := Ideal) x2 x3 (ix2 t 1) * full x0 x4 x5 x6 1 t h := by
  rw [val_main_v52_apply, val_main_v51_apply, val_main_v50_apply, val_main_v46_apply, full_1]
  have e1 : idx_main_v46 (idx_main_v50 (ix2 t h)) = ix2 t 1 :=
    funext fun a => Fin.ext (by match a with | ⟨0, _⟩ => rfl | ⟨1, _⟩ => rfl)
  rw [e1]
  simp only [Ideal.addf_def, Ideal.mulf_def]

/-! ### Expert 2 -/

/-- Token `t` against hidden unit `f` of expert 2's first weights: the slice, the reshape and the transpose only rename the index. -/
theorem proj_w1_2 (x0 : (⟨S4096x1024, .f32⟩ : BufTy).Contents (Elt Ideal)) (x4 : (⟨S8x4096x1024, .f32⟩ : BufTy).Contents (Elt Ideal))
    (t f : Fin 4096) :
    val_main_v56 (F := Ideal) x0 x4 (ix2 t f) = proj x0 x4 2 t f := by
  rw [val_main_v56_apply]
  unfold proj
  refine Finset.sum_congr rfl fun k _ => ?_
  rw [val_main_v55_apply, val_main_v54_apply, val_main_v53_apply]
  have e1 : lidx_main_v56 (ix2 t f) k = ix2 t k :=
    funext fun a => Fin.ext (by match a with | ⟨0, _⟩ => rfl | ⟨1, _⟩ => rfl)
  have e2 : idx_main_v53 (idx_main_v54 (idx_main_v55 (ridx_main_v56 (ix2 t f) k))) = ix3 2 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 2's second weights: the slice, the reshape and the transpose only rename the index. -/
theorem proj_v1_2 (x0 : (⟨S4096x1024, .f32⟩ : BufTy).Contents (Elt Ideal)) (x5 : (⟨S8x4096x1024, .f32⟩ : BufTy).Contents (Elt Ideal))
    (t f : Fin 4096) :
    val_main_v61 (F := Ideal) x0 x5 (ix2 t f) = proj x0 x5 2 t f := by
  rw [val_main_v61_apply]
  unfold proj
  refine Finset.sum_congr rfl fun k _ => ?_
  rw [val_main_v60_apply, val_main_v59_apply, val_main_v58_apply]
  have e1 : lidx_main_v61 (ix2 t f) k = ix2 t k :=
    funext fun a => Fin.ext (by match a with | ⟨0, _⟩ => rfl | ⟨1, _⟩ => rfl)
  have e2 : idx_main_v58 (idx_main_v59 (idx_main_v60 (ridx_main_v61 (ix2 t f) k))) = ix3 2 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 2's gated unit at `(t, f)`. -/
theorem glu_2 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v62 (F := Ideal) x0 x4 x5 (ix2 t f) = glu x0 x4 x5 2 t f := by
  rw [val_main_v62_apply, val_main_v57_apply, val_main_call2_v5_apply, val_main_call2_v4_apply, val_main_call2_cst_0_apply,
    val_main_call2_v3_apply, val_main_call2_v2_apply, val_main_call2_cst_apply, val_main_call2_v1_apply, val_main_call2_v0_apply,
    silu_eq, proj_w1_2, proj_v1_2]
  rfl

/-- Expert 2's whole output at `(t, h)`: the sum over the hidden units of the gated unit times the third weights. -/
theorem full_2 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v66 (F := Ideal) x0 x4 x5 x6 (ix2 t h) = full x0 x4 x5 x6 2 t h := by
  rw [val_main_v66_apply]
  unfold full
  refine Finset.sum_congr rfl fun f _ => ?_
  rw [val_main_v65_apply, val_main_v64_apply]
  have e1 : lidx_main_v66 (ix2 t h) f = ix2 t f :=
    funext fun a => Fin.ext (by match a with | ⟨0, _⟩ => rfl | ⟨1, _⟩ => rfl)
  have e2 : idx_main_v64 (idx_main_v65 (ridx_main_v66 (ix2 t h) f)) = ix3 2 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_2]

/-- The running output after expert 2: what was there before plus the gate of expert 2 times its whole output. -/
theorem step_2 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v69 (F := Ideal) x0 x2 x3 x4 x5 x6 (ix2 t h)
      = val_main_v52 (F := Ideal) x0 x2 x3 x4 x5 x6 (ix2 t h) + val_main_v17 (F := Ideal) x2 x3 (ix2 t 2) * full x0 x4 x5 x6 2 t h := by
  rw [val_main_v69_apply, val_main_v68_apply, val_main_v67_apply, val_main_v63_apply, full_2]
  have e1 : idx_main_v63 (idx_main_v67 (ix2 t h)) = ix2 t 2 :=
    funext fun a => Fin.ext (by match a with | ⟨0, _⟩ => rfl | ⟨1, _⟩ => rfl)
  rw [e1]
  simp only [Ideal.addf_def, Ideal.mulf_def]

/-! ### Expert 3 -/

/-- Token `t` against hidden unit `f` of expert 3's first weights: the slice, the reshape and the transpose only rename the index. -/
theorem proj_w1_3 (x0 : (⟨S4096x1024, .f32⟩ : BufTy).Contents (Elt Ideal)) (x4 : (⟨S8x4096x1024, .f32⟩ : BufTy).Contents (Elt Ideal))
    (t f : Fin 4096) :
    val_main_v73 (F := Ideal) x0 x4 (ix2 t f) = proj x0 x4 3 t f := by
  rw [val_main_v73_apply]
  unfold proj
  refine Finset.sum_congr rfl fun k _ => ?_
  rw [val_main_v72_apply, val_main_v71_apply, val_main_v70_apply]
  have e1 : lidx_main_v73 (ix2 t f) k = ix2 t k :=
    funext fun a => Fin.ext (by match a with | ⟨0, _⟩ => rfl | ⟨1, _⟩ => rfl)
  have e2 : idx_main_v70 (idx_main_v71 (idx_main_v72 (ridx_main_v73 (ix2 t f) k))) = ix3 3 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 3's second weights: the slice, the reshape and the transpose only rename the index. -/
theorem proj_v1_3 (x0 : (⟨S4096x1024, .f32⟩ : BufTy).Contents (Elt Ideal)) (x5 : (⟨S8x4096x1024, .f32⟩ : BufTy).Contents (Elt Ideal))
    (t f : Fin 4096) :
    val_main_v78 (F := Ideal) x0 x5 (ix2 t f) = proj x0 x5 3 t f := by
  rw [val_main_v78_apply]
  unfold proj
  refine Finset.sum_congr rfl fun k _ => ?_
  rw [val_main_v77_apply, val_main_v76_apply, val_main_v75_apply]
  have e1 : lidx_main_v78 (ix2 t f) k = ix2 t k :=
    funext fun a => Fin.ext (by match a with | ⟨0, _⟩ => rfl | ⟨1, _⟩ => rfl)
  have e2 : idx_main_v75 (idx_main_v76 (idx_main_v77 (ridx_main_v78 (ix2 t f) k))) = ix3 3 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 3's gated unit at `(t, f)`. -/
theorem glu_3 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v79 (F := Ideal) x0 x4 x5 (ix2 t f) = glu x0 x4 x5 3 t f := by
  rw [val_main_v79_apply, val_main_v74_apply, val_main_call3_v5_apply, val_main_call3_v4_apply, val_main_call3_cst_0_apply,
    val_main_call3_v3_apply, val_main_call3_v2_apply, val_main_call3_cst_apply, val_main_call3_v1_apply, val_main_call3_v0_apply,
    silu_eq, proj_w1_3, proj_v1_3]
  rfl

/-- Expert 3's whole output at `(t, h)`: the sum over the hidden units of the gated unit times the third weights. -/
theorem full_3 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v83 (F := Ideal) x0 x4 x5 x6 (ix2 t h) = full x0 x4 x5 x6 3 t h := by
  rw [val_main_v83_apply]
  unfold full
  refine Finset.sum_congr rfl fun f _ => ?_
  rw [val_main_v82_apply, val_main_v81_apply]
  have e1 : lidx_main_v83 (ix2 t h) f = ix2 t f :=
    funext fun a => Fin.ext (by match a with | ⟨0, _⟩ => rfl | ⟨1, _⟩ => rfl)
  have e2 : idx_main_v81 (idx_main_v82 (ridx_main_v83 (ix2 t h) f)) = ix3 3 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_3]

/-- The running output after expert 3: what was there before plus the gate of expert 3 times its whole output. -/
theorem step_3 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v86 (F := Ideal) x0 x2 x3 x4 x5 x6 (ix2 t h)
      = val_main_v69 (F := Ideal) x0 x2 x3 x4 x5 x6 (ix2 t h) + val_main_v17 (F := Ideal) x2 x3 (ix2 t 3) * full x0 x4 x5 x6 3 t h := by
  rw [val_main_v86_apply, val_main_v85_apply, val_main_v84_apply, val_main_v80_apply, full_3]
  have e1 : idx_main_v80 (idx_main_v84 (ix2 t h)) = ix2 t 3 :=
    funext fun a => Fin.ext (by match a with | ⟨0, _⟩ => rfl | ⟨1, _⟩ => rfl)
  rw [e1]
  simp only [Ideal.addf_def, Ideal.mulf_def]

/-! ### Expert 4 -/

/-- Token `t` against hidden unit `f` of expert 4's first weights: the slice, the reshape and the transpose only rename the index. -/
theorem proj_w1_4 (x0 : (⟨S4096x1024, .f32⟩ : BufTy).Contents (Elt Ideal)) (x4 : (⟨S8x4096x1024, .f32⟩ : BufTy).Contents (Elt Ideal))
    (t f : Fin 4096) :
    val_main_v90 (F := Ideal) x0 x4 (ix2 t f) = proj x0 x4 4 t f := by
  rw [val_main_v90_apply]
  unfold proj
  refine Finset.sum_congr rfl fun k _ => ?_
  rw [val_main_v89_apply, val_main_v88_apply, val_main_v87_apply]
  have e1 : lidx_main_v90 (ix2 t f) k = ix2 t k :=
    funext fun a => Fin.ext (by match a with | ⟨0, _⟩ => rfl | ⟨1, _⟩ => rfl)
  have e2 : idx_main_v87 (idx_main_v88 (idx_main_v89 (ridx_main_v90 (ix2 t f) k))) = ix3 4 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 4's second weights: the slice, the reshape and the transpose only rename the index. -/
theorem proj_v1_4 (x0 : (⟨S4096x1024, .f32⟩ : BufTy).Contents (Elt Ideal)) (x5 : (⟨S8x4096x1024, .f32⟩ : BufTy).Contents (Elt Ideal))
    (t f : Fin 4096) :
    val_main_v95 (F := Ideal) x0 x5 (ix2 t f) = proj x0 x5 4 t f := by
  rw [val_main_v95_apply]
  unfold proj
  refine Finset.sum_congr rfl fun k _ => ?_
  rw [val_main_v94_apply, val_main_v93_apply, val_main_v92_apply]
  have e1 : lidx_main_v95 (ix2 t f) k = ix2 t k :=
    funext fun a => Fin.ext (by match a with | ⟨0, _⟩ => rfl | ⟨1, _⟩ => rfl)
  have e2 : idx_main_v92 (idx_main_v93 (idx_main_v94 (ridx_main_v95 (ix2 t f) k))) = ix3 4 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 4's gated unit at `(t, f)`. -/
theorem glu_4 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v96 (F := Ideal) x0 x4 x5 (ix2 t f) = glu x0 x4 x5 4 t f := by
  rw [val_main_v96_apply, val_main_v91_apply, val_main_call4_v5_apply, val_main_call4_v4_apply, val_main_call4_cst_0_apply,
    val_main_call4_v3_apply, val_main_call4_v2_apply, val_main_call4_cst_apply, val_main_call4_v1_apply, val_main_call4_v0_apply,
    silu_eq, proj_w1_4, proj_v1_4]
  rfl

/-- Expert 4's whole output at `(t, h)`: the sum over the hidden units of the gated unit times the third weights. -/
theorem full_4 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v100 (F := Ideal) x0 x4 x5 x6 (ix2 t h) = full x0 x4 x5 x6 4 t h := by
  rw [val_main_v100_apply]
  unfold full
  refine Finset.sum_congr rfl fun f _ => ?_
  rw [val_main_v99_apply, val_main_v98_apply]
  have e1 : lidx_main_v100 (ix2 t h) f = ix2 t f :=
    funext fun a => Fin.ext (by match a with | ⟨0, _⟩ => rfl | ⟨1, _⟩ => rfl)
  have e2 : idx_main_v98 (idx_main_v99 (ridx_main_v100 (ix2 t h) f)) = ix3 4 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_4]

/-- The running output after expert 4: what was there before plus the gate of expert 4 times its whole output. -/
theorem step_4 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v103 (F := Ideal) x0 x2 x3 x4 x5 x6 (ix2 t h)
      = val_main_v86 (F := Ideal) x0 x2 x3 x4 x5 x6 (ix2 t h) + val_main_v17 (F := Ideal) x2 x3 (ix2 t 4) * full x0 x4 x5 x6 4 t h := by
  rw [val_main_v103_apply, val_main_v102_apply, val_main_v101_apply, val_main_v97_apply, full_4]
  have e1 : idx_main_v97 (idx_main_v101 (ix2 t h)) = ix2 t 4 :=
    funext fun a => Fin.ext (by match a with | ⟨0, _⟩ => rfl | ⟨1, _⟩ => rfl)
  rw [e1]
  simp only [Ideal.addf_def, Ideal.mulf_def]

/-! ### Expert 5 -/

/-- Token `t` against hidden unit `f` of expert 5's first weights: the slice, the reshape and the transpose only rename the index. -/
theorem proj_w1_5 (x0 : (⟨S4096x1024, .f32⟩ : BufTy).Contents (Elt Ideal)) (x4 : (⟨S8x4096x1024, .f32⟩ : BufTy).Contents (Elt Ideal))
    (t f : Fin 4096) :
    val_main_v107 (F := Ideal) x0 x4 (ix2 t f) = proj x0 x4 5 t f := by
  rw [val_main_v107_apply]
  unfold proj
  refine Finset.sum_congr rfl fun k _ => ?_
  rw [val_main_v106_apply, val_main_v105_apply, val_main_v104_apply]
  have e1 : lidx_main_v107 (ix2 t f) k = ix2 t k :=
    funext fun a => Fin.ext (by match a with | ⟨0, _⟩ => rfl | ⟨1, _⟩ => rfl)
  have e2 : idx_main_v104 (idx_main_v105 (idx_main_v106 (ridx_main_v107 (ix2 t f) k))) = ix3 5 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 5's second weights: the slice, the reshape and the transpose only rename the index. -/
theorem proj_v1_5 (x0 : (⟨S4096x1024, .f32⟩ : BufTy).Contents (Elt Ideal)) (x5 : (⟨S8x4096x1024, .f32⟩ : BufTy).Contents (Elt Ideal))
    (t f : Fin 4096) :
    val_main_v112 (F := Ideal) x0 x5 (ix2 t f) = proj x0 x5 5 t f := by
  rw [val_main_v112_apply]
  unfold proj
  refine Finset.sum_congr rfl fun k _ => ?_
  rw [val_main_v111_apply, val_main_v110_apply, val_main_v109_apply]
  have e1 : lidx_main_v112 (ix2 t f) k = ix2 t k :=
    funext fun a => Fin.ext (by match a with | ⟨0, _⟩ => rfl | ⟨1, _⟩ => rfl)
  have e2 : idx_main_v109 (idx_main_v110 (idx_main_v111 (ridx_main_v112 (ix2 t f) k))) = ix3 5 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 5's gated unit at `(t, f)`. -/
theorem glu_5 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v113 (F := Ideal) x0 x4 x5 (ix2 t f) = glu x0 x4 x5 5 t f := by
  rw [val_main_v113_apply, val_main_v108_apply, val_main_call5_v5_apply, val_main_call5_v4_apply, val_main_call5_cst_0_apply,
    val_main_call5_v3_apply, val_main_call5_v2_apply, val_main_call5_cst_apply, val_main_call5_v1_apply, val_main_call5_v0_apply,
    silu_eq, proj_w1_5, proj_v1_5]
  rfl

/-- Expert 5's whole output at `(t, h)`: the sum over the hidden units of the gated unit times the third weights. -/
theorem full_5 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v117 (F := Ideal) x0 x4 x5 x6 (ix2 t h) = full x0 x4 x5 x6 5 t h := by
  rw [val_main_v117_apply]
  unfold full
  refine Finset.sum_congr rfl fun f _ => ?_
  rw [val_main_v116_apply, val_main_v115_apply]
  have e1 : lidx_main_v117 (ix2 t h) f = ix2 t f :=
    funext fun a => Fin.ext (by match a with | ⟨0, _⟩ => rfl | ⟨1, _⟩ => rfl)
  have e2 : idx_main_v115 (idx_main_v116 (ridx_main_v117 (ix2 t h) f)) = ix3 5 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_5]

/-- The running output after expert 5: what was there before plus the gate of expert 5 times its whole output. -/
theorem step_5 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v120 (F := Ideal) x0 x2 x3 x4 x5 x6 (ix2 t h)
      = val_main_v103 (F := Ideal) x0 x2 x3 x4 x5 x6 (ix2 t h) + val_main_v17 (F := Ideal) x2 x3 (ix2 t 5) * full x0 x4 x5 x6 5 t h := by
  rw [val_main_v120_apply, val_main_v119_apply, val_main_v118_apply, val_main_v114_apply, full_5]
  have e1 : idx_main_v114 (idx_main_v118 (ix2 t h)) = ix2 t 5 :=
    funext fun a => Fin.ext (by match a with | ⟨0, _⟩ => rfl | ⟨1, _⟩ => rfl)
  rw [e1]
  simp only [Ideal.addf_def, Ideal.mulf_def]

/-! ### Expert 6 -/

/-- Token `t` against hidden unit `f` of expert 6's first weights: the slice, the reshape and the transpose only rename the index. -/
theorem proj_w1_6 (x0 : (⟨S4096x1024, .f32⟩ : BufTy).Contents (Elt Ideal)) (x4 : (⟨S8x4096x1024, .f32⟩ : BufTy).Contents (Elt Ideal))
    (t f : Fin 4096) :
    val_main_v124 (F := Ideal) x0 x4 (ix2 t f) = proj x0 x4 6 t f := by
  rw [val_main_v124_apply]
  unfold proj
  refine Finset.sum_congr rfl fun k _ => ?_
  rw [val_main_v123_apply, val_main_v122_apply, val_main_v121_apply]
  have e1 : lidx_main_v124 (ix2 t f) k = ix2 t k :=
    funext fun a => Fin.ext (by match a with | ⟨0, _⟩ => rfl | ⟨1, _⟩ => rfl)
  have e2 : idx_main_v121 (idx_main_v122 (idx_main_v123 (ridx_main_v124 (ix2 t f) k))) = ix3 6 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 6's second weights: the slice, the reshape and the transpose only rename the index. -/
theorem proj_v1_6 (x0 : (⟨S4096x1024, .f32⟩ : BufTy).Contents (Elt Ideal)) (x5 : (⟨S8x4096x1024, .f32⟩ : BufTy).Contents (Elt Ideal))
    (t f : Fin 4096) :
    val_main_v129 (F := Ideal) x0 x5 (ix2 t f) = proj x0 x5 6 t f := by
  rw [val_main_v129_apply]
  unfold proj
  refine Finset.sum_congr rfl fun k _ => ?_
  rw [val_main_v128_apply, val_main_v127_apply, val_main_v126_apply]
  have e1 : lidx_main_v129 (ix2 t f) k = ix2 t k :=
    funext fun a => Fin.ext (by match a with | ⟨0, _⟩ => rfl | ⟨1, _⟩ => rfl)
  have e2 : idx_main_v126 (idx_main_v127 (idx_main_v128 (ridx_main_v129 (ix2 t f) k))) = ix3 6 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 6's gated unit at `(t, f)`. -/
theorem glu_6 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v130 (F := Ideal) x0 x4 x5 (ix2 t f) = glu x0 x4 x5 6 t f := by
  rw [val_main_v130_apply, val_main_v125_apply, val_main_call6_v5_apply, val_main_call6_v4_apply, val_main_call6_cst_0_apply,
    val_main_call6_v3_apply, val_main_call6_v2_apply, val_main_call6_cst_apply, val_main_call6_v1_apply, val_main_call6_v0_apply,
    silu_eq, proj_w1_6, proj_v1_6]
  rfl

/-- Expert 6's whole output at `(t, h)`: the sum over the hidden units of the gated unit times the third weights. -/
theorem full_6 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v134 (F := Ideal) x0 x4 x5 x6 (ix2 t h) = full x0 x4 x5 x6 6 t h := by
  rw [val_main_v134_apply]
  unfold full
  refine Finset.sum_congr rfl fun f _ => ?_
  rw [val_main_v133_apply, val_main_v132_apply]
  have e1 : lidx_main_v134 (ix2 t h) f = ix2 t f :=
    funext fun a => Fin.ext (by match a with | ⟨0, _⟩ => rfl | ⟨1, _⟩ => rfl)
  have e2 : idx_main_v132 (idx_main_v133 (ridx_main_v134 (ix2 t h) f)) = ix3 6 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_6]

/-- The running output after expert 6: what was there before plus the gate of expert 6 times its whole output. -/
theorem step_6 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v137 (F := Ideal) x0 x2 x3 x4 x5 x6 (ix2 t h)
      = val_main_v120 (F := Ideal) x0 x2 x3 x4 x5 x6 (ix2 t h) + val_main_v17 (F := Ideal) x2 x3 (ix2 t 6) * full x0 x4 x5 x6 6 t h := by
  rw [val_main_v137_apply, val_main_v136_apply, val_main_v135_apply, val_main_v131_apply, full_6]
  have e1 : idx_main_v131 (idx_main_v135 (ix2 t h)) = ix2 t 6 :=
    funext fun a => Fin.ext (by match a with | ⟨0, _⟩ => rfl | ⟨1, _⟩ => rfl)
  rw [e1]
  simp only [Ideal.addf_def, Ideal.mulf_def]

/-! ### Expert 7 -/

/-- Token `t` against hidden unit `f` of expert 7's first weights: the slice, the reshape and the transpose only rename the index. -/
theorem proj_w1_7 (x0 : (⟨S4096x1024, .f32⟩ : BufTy).Contents (Elt Ideal)) (x4 : (⟨S8x4096x1024, .f32⟩ : BufTy).Contents (Elt Ideal))
    (t f : Fin 4096) :
    val_main_v141 (F := Ideal) x0 x4 (ix2 t f) = proj x0 x4 7 t f := by
  rw [val_main_v141_apply]
  unfold proj
  refine Finset.sum_congr rfl fun k _ => ?_
  rw [val_main_v140_apply, val_main_v139_apply, val_main_v138_apply]
  have e1 : lidx_main_v141 (ix2 t f) k = ix2 t k :=
    funext fun a => Fin.ext (by match a with | ⟨0, _⟩ => rfl | ⟨1, _⟩ => rfl)
  have e2 : idx_main_v138 (idx_main_v139 (idx_main_v140 (ridx_main_v141 (ix2 t f) k))) = ix3 7 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Token `t` against hidden unit `f` of expert 7's second weights: the slice, the reshape and the transpose only rename the index. -/
theorem proj_v1_7 (x0 : (⟨S4096x1024, .f32⟩ : BufTy).Contents (Elt Ideal)) (x5 : (⟨S8x4096x1024, .f32⟩ : BufTy).Contents (Elt Ideal))
    (t f : Fin 4096) :
    val_main_v146 (F := Ideal) x0 x5 (ix2 t f) = proj x0 x5 7 t f := by
  rw [val_main_v146_apply]
  unfold proj
  refine Finset.sum_congr rfl fun k _ => ?_
  rw [val_main_v145_apply, val_main_v144_apply, val_main_v143_apply]
  have e1 : lidx_main_v146 (ix2 t f) k = ix2 t k :=
    funext fun a => Fin.ext (by match a with | ⟨0, _⟩ => rfl | ⟨1, _⟩ => rfl)
  have e2 : idx_main_v143 (idx_main_v144 (idx_main_v145 (ridx_main_v146 (ix2 t f) k))) = ix3 7 f k :=
    funext fun a => Fin.ext (by
      have hf := f.isLt
      have hk := k.isLt
      match a with
      | ⟨0, _⟩ => rfl
      | ⟨1, _⟩ => show (f.val * 1024 + k.val) / 1024 % 4096 = f.val; omega
      | ⟨2, _⟩ => show (f.val * 1024 + k.val) % 1024 = k.val; omega)
  rw [e1, e2]

/-- Expert 7's gated unit at `(t, f)`. -/
theorem glu_7 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal))
    (t f : Fin 4096) :
    val_main_v147 (F := Ideal) x0 x4 x5 (ix2 t f) = glu x0 x4 x5 7 t f := by
  rw [val_main_v147_apply, val_main_v142_apply, val_main_call7_v5_apply, val_main_call7_v4_apply, val_main_call7_cst_0_apply,
    val_main_call7_v3_apply, val_main_call7_v2_apply, val_main_call7_cst_apply, val_main_call7_v1_apply, val_main_call7_v0_apply,
    silu_eq, proj_w1_7, proj_v1_7]
  rfl

/-- Expert 7's whole output at `(t, h)`: the sum over the hidden units of the gated unit times the third weights. -/
theorem full_7 (x0 : (⟨S4096x1024, .f32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v151 (F := Ideal) x0 x4 x5 x6 (ix2 t h) = full x0 x4 x5 x6 7 t h := by
  rw [val_main_v151_apply]
  unfold full
  refine Finset.sum_congr rfl fun f _ => ?_
  rw [val_main_v150_apply, val_main_v149_apply]
  have e1 : lidx_main_v151 (ix2 t h) f = ix2 t f :=
    funext fun a => Fin.ext (by match a with | ⟨0, _⟩ => rfl | ⟨1, _⟩ => rfl)
  have e2 : idx_main_v149 (idx_main_v150 (ridx_main_v151 (ix2 t h) f)) = ix3 7 f h :=
    funext fun a => Fin.ext (by
      have hf := f.isLt
      have hh := h.isLt
      match a with
      | ⟨0, _⟩ => rfl
      | ⟨1, _⟩ => show (f.val * 1024 + h.val) / 1024 % 4096 = f.val; omega
      | ⟨2, _⟩ => show (f.val * 1024 + h.val) % 1024 = h.val; omega)
  rw [e1, e2, glu_7]

/-- The running output after expert 7: what was there before plus the gate of expert 7 times its whole output. -/
theorem step_7 (x0 : (⟨S4096x1024, .f32⟩ : BufTy).Contents (Elt Ideal)) (x2 : (⟨S4096x2, .f32⟩ : BufTy).Contents (Elt Ideal)) (x3 : (⟨S4096x2, .i32⟩ : BufTy).Contents (Elt Ideal)) (x4 : (⟨S8x4096x1024, .f32⟩ : BufTy).Contents (Elt Ideal)) (x5 : (⟨S8x4096x1024, .f32⟩ : BufTy).Contents (Elt Ideal)) (x6 : (⟨S8x4096x1024, .f32⟩ : BufTy).Contents (Elt Ideal))
    (t : Fin 4096) (h : Fin 1024) :
    val_main_v154 (F := Ideal) x0 x2 x3 x4 x5 x6 (ix2 t h)
      = val_main_v137 (F := Ideal) x0 x2 x3 x4 x5 x6 (ix2 t h) + val_main_v17 (F := Ideal) x2 x3 (ix2 t 7) * full x0 x4 x5 x6 7 t h := by
  rw [val_main_v154_apply, val_main_v153_apply, val_main_v152_apply, val_main_v148_apply, full_7]
  have e1 : idx_main_v148 (idx_main_v152 (ix2 t h)) = ix2 t 7 :=
    funext fun a => Fin.ext (by match a with | ⟨0, _⟩ => rfl | ⟨1, _⟩ => rfl)
  rw [e1]
  simp only [Ideal.addf_def, Ideal.mulf_def]

/-- The reference's output at `(t, h)`: the eight experts' gate-weighted outputs added one after the other to a zero,
    the gate table kept as the reference computes it. -/
theorem ref_value (x0 : (⟨S4096x1024, .f32⟩ : BufTy).Contents (Elt Ideal)) (x2 : (⟨S4096x2, .f32⟩ : BufTy).Contents (Elt Ideal)) (x3 : (⟨S4096x2, .i32⟩ : BufTy).Contents (Elt Ideal))
    (x4 x5 x6 : (⟨S8x4096x1024, .f32⟩ : BufTy).Contents (Elt Ideal)) (t : Fin 4096) (h : Fin 1024) :
    Cert.ReferenceIdeal.Read.val_main_v154 (F := Ideal) x0 x2 x3 x4 x5 x6 (ValueIdx.ix2 t h)
      = Cert.Moe.refOut (Cert.ReferenceIdeal.Read.val_main_v17 (F := Ideal) x2 x3) x0 x4 x5 x6 t h := by
  rw [step_7, step_6, step_5, step_4, step_3, step_2, step_1, step_0]
  rfl

end Cert.Moe.Ref

end
-- ==== Proof.Gates.lean ====
/-
  The gate table, and the kernel's gate blocks.

  Both programs build the same table `g[t, e]`: a zero table to which each token's expert weights are scatter-added at
  the token's chosen experts. The kernel hands it to its body transposed, as `[8, 4096, 1]`, in blocks `[1, 512, 1]`:
  the block of grid point `n` at row `r` holds `g[512·(n/32) + r, n/4 % 8]`. A scatter-add of real numbers into
  zeros is a table of real numbers.
-/
import proofs.«161855_j16535624089676_1_alg».proof.Proof.Gen.KernelIdeal.Value
import proofs.«161855_j16535624089676_1_alg».proof.Proof.Gen.ReferenceIdeal.Read
import proofs.«161855_j16535624089676_1_alg».proof.Proof.Spec
import proofs.«161855_j16535624089676_1_alg».proof.Proof.Finite
import Idealize.ShloMosaic.Lib.ValueIdx
import Idealize.ShloMosaic.Lib.Pipeline.Value
import Idealize.ShloMosaic.Lib.StableHlo.Run

noncomputable section

open scoped BigOperators

namespace Cert.Moe.Ker

open Cert.KernelIdeal Cert.KernelIdeal.Gen Idealize.ShloMosaic Idealize.ShloMosaic.TcCoe Idealize.SL.Sem Idealize.ShloMosaic.ValueIdx Cert.LibReal

variable (m : (ℓ : Loc nD τ sig) → Buf (Elt Ideal) ℓ)

/-- The gate table both programs build: the scatter-add of the expert weights at (token, chosen expert). -/
abbrev gates (c : Dev nD) : S4096x8.Idx → EReal :=
  Cert.ReferenceIdeal.Read.val_main_v17 (F := Ideal) (m ((c : Thread nD τ).loc main_arg2)) (m ((c : Thread nD τ).loc main_arg3))

set_option maxHeartbeats 1000000 in
theorem V19 (c : Dev nD) : (V m c main_v19 : S8x4096x1.Idx → EReal)
    = broadcastInDim S8x4096x1 ![0, 1] bcast_S8x4096_S8x4096x1_0_1 (transpose S8x4096 [1, 0] (gates m c) transposes_S4096x8_S8x4096_1_0) := by
  show StableHlo.after (hostOps0 (F := Ideal)) (fun b => m (c, b)) main_v19 = _
  after_results
  rfl

theorem idx_facts4 : ∀ t : Fin cfg0.N,
    win0_4.index t (0 : Fin 3) = t.val / 4 % 8 ∧ win0_4.index t (1 : Fin 3) = t.val / 32 ∧ win0_4.index t (2 : Fin 3) = 0 :=
  (by decide +kernel : ∀ t : Fin grid0.N, _)

theorem blk_gate (c : Dev nD) (n : Fin cfg0.N) (r : Fin 512) (t : Fin 4096) (e : Fin 8)
    (ht : t.val = 512 * (n.val / 32) + r.val) (he : e.val = n.val / 4 % 8) :
    iblk m c 4 n (ix3 (0 : Fin 1) r (0 : Fin 1)) = gates m c (ix2 t e) := by
  obtain ⟨f0, f1, f2⟩ := idx_facts4 n
  show V m c main_v19 (((cfg0.win 4).blk n).view.emb (ix3 (0 : Fin 1) r (0 : Fin 1))) = _
  refine (congrFun (V19 m c) _).trans ?_
  refine (broadcastInDim_apply _ bcast_S8x4096_S8x4096x1_0_1 _ _ (ix2 e t) (fun a => ?_)).trans ?_
  · match a with
    | ⟨0, _⟩ =>
      show e.val = if (8 : Nat) = 1 then 0 else win0_4.index n (0 : Fin 3) * 1 + 1 * 0
      rw [if_neg (by decide), f0]; omega
    | ⟨1, _⟩ =>
      show t.val = if (4096 : Nat) = 1 then 0 else win0_4.index n (1 : Fin 3) * 512 + 1 * r.val
      rw [if_neg (by decide), f1]; omega
  · exact transpose_apply [1, 0] _ transposes_S4096x8_S8x4096_1_0 (ix2 e t) (ix2 t e) (fun b => match b with
      | ⟨0, _⟩ => rfl
      | ⟨1, _⟩ => rfl)

/-- The gate table of real expert weights is real. -/
theorem gates_real (c : Dev nD) (h2 : ∀ i, IsReal (m ((c : Thread nD τ).loc main_arg2) i)) : ∀ i, IsReal (gates m c i) := by
  intro i
  unfold gates Cert.ReferenceIdeal.Read.val_main_v17
  refine scatterAdd_real _ _ _ _ (fun j => ?_) h2 i
  rw [Cert.ReferenceIdeal.Read.val_main_v0_apply, Cert.ReferenceIdeal.Read.val_main_cst_apply]
  exact ⟨0, by rw [Ideal.ofBits_def, Ideal.ofBits_zero_f32]; rfl⟩

end Cert.Moe.Ker

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Payload.lean ====
import proofs.«161855_j16535624089676_1_alg».proof.Proof.Gen.KernelIdeal.Skeleton
import proofs.«161855_j16535624089676_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

/-!
  The kernel body's arithmetic, read at one index over the extended reals.

  At a grid point the body holds a block of tokens `x0` (512 × 1024), one expert's tiles `x1`, `x2`, `x3`
  (1 × 1024 × 1024 each) of the gate projection, the up projection and the down projection, the column `x4`
  (1 × 512 × 1) of that expert's routing weights, and the block `acc` (512 × 1024) of the running output. It forms
  `g = x0 · x1ᵀ` and `u = x0 · x2ᵀ`, the gated activation `(g ⊙ logistic g) ⊙ u`, its product with `x3`, scales
  row `r` by the routing weight `x4(0, r, 0)`, and adds the result to `acc`. On the first step of a block's
  accumulation it first writes the zero block.

  `pay1_apply`: the zero block is `0` at every index. `pay2_apply`: the updated block at `(r, h)` is

    acc(r, h) + x4(0, r, 0) · Σ_f ((g(r, f) · logistic g(r, f)) · u(r, f)) · x3(0, f, h),
    g(r, f) = Σ_k x0(r, k) · x1(0, f, k),   u(r, f) = Σ_k x0(r, k) · x2(0, f, k),

  every product in the order the body forms it. Each step reads ONE operation at ONE index: the pointwise ones by
  definition, a dropped leading unit axis and a transpose by their index maps, a matrix product into the zero
  accumulator as the sum over the contracted axis.
-/

noncomputable section

open scoped BigOperators

namespace Cert.Moe.Pay

open Cert.KernelIdeal Cert.KernelIdeal.Gen Idealize.ShloMosaic Idealize.ShloMosaic.ValueIdx

/-- The zero block: the broadcast of the f32 word `0` is `0` at every index. -/
theorem pay1_apply (i : S512x1024.Idx) : k0_pay1 (F := Ideal) i = 0 := by
  unfold k0_pay1
  exact Ideal.ofBits_zero_f32

/-- Equal factors give equal products. -/
theorem mul_eq {a a' b b' : EReal} (ha : a = a') (hb : b = b') : a * b = a' * b' := by rw [ha, hb]

/-- Equal summands give equal sums. -/
theorem add_eq {a a' b b' : EReal} (ha : a = a') (hb : b = b') : a + b = a' + b' := by rw [ha, hb]

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The routing-weight column `[1, 512, 1]`, its leading unit axis dropped, broadcast along the row: at `(r, h)` it
    is the weight of row `r`. -/
theorem gate_apply (g : FVec Ideal S1x512x1 .f32) (r : Fin 512) (h : Fin 1024) :
    broadcastTo S512x1024 (shapeCast S512x1 g shapeCasts_S1x512x1_S512x1) broadcasts_S512x1_S512x1024 (ix2 r h)
      = g (ix3 0 r 0) :=
  (broadcastTo_a1_ab_apply _ broadcasts_S512x1_S512x1024 r h).trans
    (shapeCast_1ab_ab_apply g shapeCasts_S1x512x1_S512x1 r 0)

/-- A tile `[1, 1024, 1024]`, its leading unit axis dropped, reads at `(f, h)` the tile at `(0, f, h)`. -/
theorem tile_apply (w : FVec Ideal S1x1024x1024 .bf16) (f h : Fin 1024) :
    shapeCast S1024x1024 w shapeCasts_S1x1024x1024_S1024x1024 (ix2 f h) = w (ix3 0 f h) :=
  shapeCast_1ab_ab_apply w shapeCasts_S1x1024x1024_S1024x1024 f h

/-- The same tile transposed reads at `(k, f)` the tile at `(0, f, k)`. -/
theorem tileT_apply (w : FVec Ideal S1x1024x1024 .bf16) (k f : Fin 1024) :
    transpose S1024x1024 [1, 0] (shapeCast S1024x1024 w shapeCasts_S1x1024x1024_S1024x1024)
      transposes_S1024x1024_p1_0_S1024x1024 (ix2 k f) = w (ix3 0 f k) :=
  (transpose_ix2_apply _ transposes_S1024x1024_p1_0_S1024x1024 k f).trans (tile_apply w f k)

/-- The tokens times a transposed tile, into the zero accumulator: at `(r, f)` the sum over `k` of
    `x0(r, k) · w(0, f, k)`. -/
theorem proj_apply (x0 : FVec Ideal S512x1024 .bf16) (w : FVec Ideal S1x1024x1024 .bf16) (r : Fin 512) (f : Fin 1024) :
    matmul (F := Ideal) (φ₁ := .bf16) (φ₂ := .bf16) dot_S512x1024_S1024x1024_S512x1024_1_0_0_1_n_n none
        (shapeCast S512x1024 x0 shapeCasts_S512x1024_S512x1024)
        (transpose S1024x1024 [1, 0] (shapeCast S1024x1024 w shapeCasts_S1x1024x1024_S1024x1024)
          transposes_S1024x1024_p1_0_S1024x1024)
        (constant S512x1024 .f32 0x00000000#32) (ix2 r f)
      = ∑ k : Fin 1024, x0 (ix2 r k) * w (ix3 0 f k) := by
  refine (Cert.LibMatmulNN.matmul_nn_apply _ rfl rfl rfl rfl rfl rfl none _ _ r f).trans ?_
  refine Finset.sum_congr rfl fun k _ => ?_
  exact mul_eq (congrFun (shapeCast_self x0 shapeCasts_S512x1024_S512x1024) (ix2 r k)) (tileT_apply w k f)

/-- The updated block at `(r, h)`: the running output plus the routing weight of row `r` times the gated
    activation's product with the down-projection tile. -/
theorem pay2_apply (x0 : Vec Ideal S512x1024 .bf16) (x1 x2 x3 : Vec Ideal S1x1024x1024 .bf16) (x4 : Vec Ideal S1x512x1 .f32) (acc : Vec Ideal S512x1024 .f32) (r : Fin 512) (h : Fin 1024) :
    k0_pay2 (F := Ideal) x0 x1 x2 x3 x4 acc (ix2 r h)
      = acc (ix2 r h) + x4 (ix3 0 r 0) * ∑ f : Fin 1024,
          (((∑ k : Fin 1024, x0 (ix2 r k) * x1 (ix3 0 f k)) * Ideal.logistic (∑ k : Fin 1024, x0 (ix2 r k) * x1 (ix3 0 f k)))
            * (∑ k : Fin 1024, x0 (ix2 r k) * x2 (ix3 0 f k))) * x3 (ix3 0 f h) := by
  unfold k0_pay2
  refine (addf_apply _ _ _).trans ?_
  refine add_eq (congrFun (shapeCast_self acc shapeCasts_S512x1024_S512x1024) (ix2 r h)) ?_
  refine (mulf_apply _ _ _).trans ?_
  refine mul_eq (gate_apply x4 r h) ?_
  refine (Cert.LibMatmulNN.matmul_nn_apply _ rfl rfl rfl rfl rfl rfl none _ _ r h).trans ?_
  refine Finset.sum_congr rfl fun f _ => ?_
  refine mul_eq ?_ (tile_apply x3 f h)
  refine (truncf_apply (ψ := .bf16) _ bitsLt_bf16_f32 (ix2 r f)).trans ?_
  refine (mulf_apply _ _ _).trans ?_
  refine mul_eq ?_ (proj_apply x0 x2 r f)
  refine (mulf_apply _ _ _).trans ?_
  refine mul_eq (proj_apply x0 x1 r f) ?_
  exact congrArg Ideal.logistic (proj_apply x0 x1 r f)

end Cert.Moe.Pay

end
-- ==== Proof.KernelFold.lean ====
/-
  A run of thirty-two grid points as a fold, unrolled.

  The first point of a run stores zero and then adds its addend; every later point adds its addend to what the point
  before left. The addend of a point at position `(r, h)` of the block is the gate of row `r` times the sum over the
  tile's hidden units of the gated unit times the down-projection weight, all read off the point's five input blocks.
  So after the run the block holds zero plus the sum of the thirty-two addends.
-/
import proofs.«161855_j16535624089676_1_alg».proof.Proof.Gen.KernelIdeal.Value
import proofs.«161855_j16535624089676_1_alg».proof.Proof.Spec
import proofs.«161855_j16535624089676_1_alg».proof.Proof.Payload
import Idealize.ShloMosaic.Lib.ValueIdx
import Idealize.ShloMosaic.Lib.Pipeline.Value

noncomputable section

open scoped BigOperators

namespace Cert.Moe.Ker

open Cert.KernelIdeal Cert.KernelIdeal.Gen Idealize.ShloMosaic Idealize.ShloMosaic.TcCoe Idealize.SL.Sem Idealize.ShloMosaic.ValueIdx

/-- What one grid point adds at position `y` of the output block, from the point's five input blocks: the gate of the
    row times the sum over the tile's hidden units of the gated unit times the down-projection weight. -/
def addend (x0 : Vec Ideal S512x1024 .bf16) (x1 x2 x3 : Vec Ideal S1x1024x1024 .bf16) (x4 : Vec Ideal S1x512x1 .f32)
    (y : S512x1024.Idx) : EReal :=
  x4 (ix3 (0 : Fin 1) (y 0) (0 : Fin 1)) * ∑ f : Fin 1024,
    (((∑ k : Fin 1024, x0 (ix2 (y 0) k) * x1 (ix3 (0 : Fin 1) f k)) * Ideal.logistic (∑ k : Fin 1024, x0 (ix2 (y 0) k) * x1 (ix3 (0 : Fin 1) f k)))
      * (∑ k : Fin 1024, x0 (ix2 (y 0) k) * x2 (ix3 (0 : Fin 1) f k))) * x3 (ix3 (0 : Fin 1) f (y 1))

/-- The body's stored value is the accumulator plus the point's addend. -/
theorem pay2_addend (x0 : Vec Ideal S512x1024 .bf16) (x1 x2 x3 : Vec Ideal S1x1024x1024 .bf16) (x4 : Vec Ideal S1x512x1 .f32)
    (acc : Vec Ideal S512x1024 .f32) (y : S512x1024.Idx) :
    k0_pay2 (F := Ideal) x0 x1 x2 x3 x4 acc y = acc y + addend x0 x1 x2 x3 x4 y := by
  obtain ⟨r, h, rfl⟩ : ∃ (r : Fin 512) (h : Fin 1024), y = ix2 r h := ⟨y 0, y 1, eq_ix2 y⟩
  exact Cert.Moe.Pay.pay2_apply x0 x1 x2 x3 x4 acc r h

variable (m : (ℓ : Loc nD τ sig) → Buf (Elt Ideal) ℓ)

/-- The addend of grid point `n` (zero past the grid). -/
def pointAdd (c : Dev nD) (n : ℕ) (y : S512x1024.Idx) : EReal :=
  if h : n < cfg0.N then
    addend (iblk m c 0 ⟨n, h⟩) (iblk m c 1 ⟨n, h⟩) (iblk m c 2 ⟨n, h⟩) (iblk m c 3 ⟨n, h⟩) (iblk m c 4 ⟨n, h⟩) y
  else 0

/-- A run's fold: zero plus the addends of its thirty-two points. -/
theorem fold_apply (c : Dev nD) (b : ℕ) (hb : b + 31 < cfg0.N) (y : S512x1024.Idx) :
    Pipeline.accAt (Value.reset5 m c) (Value.step5 m c) b 31 hb y = 0 + ∑ s ∈ Finset.range 32, pointAdd m c (b + s) y :=
  Pipeline.accAt_add_apply (Value.reset5 m c) (Value.step5 m c) (fun _ => (0 : EReal)) (pointAdd m c) b 31
    (fun h i => by
      unfold Value.reset5 pointAdd
      rw [dif_pos h, pay2_addend, Cert.Moe.Pay.pay1_apply])
    (fun n h acc i _ _ => by
      unfold Value.step5 pointAdd
      rw [dif_pos h, pay2_addend])
    31 le_rfl hb y

end Cert.Moe.Ker

end
-- ==== Proof.Blocks.lean ====
/-
  The kernel's input blocks read at an index. At grid point n the token tile is n / 32, the expert n / 4 % 8 and the
  hidden tile n % 4. The activations' block holds rows 512 * (n / 32) to 512 * (n / 32) + 511 of the activations; each
  weight array's block holds, of expert n / 4 % 8, the 1024 hidden units from 1024 * (n % 4) on, all model columns. The
  arrays staged are the arguments converted to a narrower format, which over the extended reals changes nothing.
-/
import proofs.«161855_j16535624089676_1_alg».proof.Proof.Gen.KernelIdeal.Value
import Idealize.ShloMosaic.Lib.ValueIdx
import Idealize.ShloMosaic.Lib.Pipeline.Value
import Idealize.ShloMosaic.Lib.StableHlo.Run

noncomputable section

namespace Cert.Moe.Blk

open Cert.KernelIdeal Cert.KernelIdeal.Gen Idealize.ShloMosaic Idealize.ShloMosaic.TcCoe Idealize.SL.Sem Idealize.ShloMosaic.ValueIdx

/-- The printed index maps of the four input windows, decided once over the grid: the activations' block index is
    (n / 32, 0); each weight array's is (n / 4 % 8, n % 4, 0). -/
theorem idx_facts : ∀ t : Fin cfg0.N,
    win0_0.index t (0 : Fin 2) = t.val / 32 ∧ win0_0.index t (1 : Fin 2) = 0
    ∧ win0_1.index t (0 : Fin 3) = t.val / 4 % 8 ∧ win0_1.index t (1 : Fin 3) = t.val % 4 ∧ win0_1.index t (2 : Fin 3) = 0
    ∧ win0_2.index t (0 : Fin 3) = t.val / 4 % 8 ∧ win0_2.index t (1 : Fin 3) = t.val % 4 ∧ win0_2.index t (2 : Fin 3) = 0
    ∧ win0_3.index t (0 : Fin 3) = t.val / 4 % 8 ∧ win0_3.index t (1 : Fin 3) = t.val % 4 ∧ win0_3.index t (2 : Fin 3) = 0 :=
  (by decide +kernel : ∀ t : Fin grid0.N, _)

variable (m : (ℓ : Loc nD τ sig) → Buf (Elt Ideal) ℓ)

/-- The activations as the region finds them: the argument itself (the conversion is the identity here). -/
theorem V_x (c : Dev nD) : (V m c main_v20 : S4096x1024.Idx → EReal) = m ((c : Thread nD τ).loc main_arg0) := by
  dsimp only [Gen.V, Gen.hostOps0]
  after_results
  rfl

/-- Row r, column k of the activations' block at point n is row 512 * (n / 32) + r, column k of the activations. -/
theorem blk_x (c : Dev nD) (n : Fin cfg0.N) (r : Fin 512) (k : Fin 1024) (t : Fin 4096) (ht : t.val = 512 * (n.val / 32) + r.val) :
    iblk m c 0 n (ix2 r k) = m ((c : Thread nD τ).loc main_arg0) (ix2 t k) := by
  obtain ⟨e0, e1, -⟩ := idx_facts n
  show V m c main_v20 (((cfg0.win 0).blk n).view.emb (ix2 r k)) = _
  refine (congrFun (V_x m c) _).trans ?_
  refine congrArg _ (funext fun a => Fin.ext ?_)
  match a with
  | ⟨0, _⟩ =>
    show win0_0.index n (0 : Fin 2) * 512 + 1 * r.val = t.val
    omega
  | ⟨1, _⟩ =>
    show win0_0.index n (1 : Fin 2) * 1024 + 1 * k.val = k.val
    omega

/-- The first projection's weights as the region finds it: the argument itself (the conversion is the identity here). -/
theorem V_w1 (c : Dev nD) : (V m c main_v21 : S8x4096x1024.Idx → EReal) = m ((c : Thread nD τ).loc main_arg4) := by
  dsimp only [Gen.V, Gen.hostOps0]
  after_results
  rfl

/-- The second projection's weights as the region finds it: the argument itself (the conversion is the identity here). -/
theorem V_v1 (c : Dev nD) : (V m c main_v22 : S8x4096x1024.Idx → EReal) = m ((c : Thread nD τ).loc main_arg5) := by
  dsimp only [Gen.V, Gen.hostOps0]
  after_results
  rfl

/-- The output weights as the region finds it: the argument itself (the conversion is the identity here). -/
theorem V_w2 (c : Dev nD) : (V m c main_v23 : S8x4096x1024.Idx → EReal) = m ((c : Thread nD τ).loc main_arg6) := by
  dsimp only [Gen.V, Gen.hostOps0]
  after_results
  rfl

/-- Hidden unit f, column k of the first projection's block at point n is, of expert n / 4 % 8, hidden unit 1024 * (n % 4) + f, column k. -/
theorem blk_w1 (c : Dev nD) (n : Fin cfg0.N) (f k : Fin 1024) (e : Fin 8) (u : Fin 4096) (he : e.val = n.val / 4 % 8)
    (hu : u.val = f.val + 1024 * (n.val % 4)) :
    iblk m c 1 n (ix3 0 f k) = m ((c : Thread nD τ).loc main_arg4) (ix3 e u k) := by
  obtain ⟨-, -, e0, e1, e2, -⟩ := idx_facts n
  show V m c main_v21 (((cfg0.win 1).blk n).view.emb (ix3 0 f k)) = _
  refine (congrFun (V_w1 m c) _).trans ?_
  refine congrArg _ (funext fun a => Fin.ext ?_)
  match a with
  | ⟨0, _⟩ =>
    show win0_1.index n (0 : Fin 3) * 1 + 1 * 0 = e.val
    omega
  | ⟨1, _⟩ =>
    show win0_1.index n (1 : Fin 3) * 1024 + 1 * f.val = u.val
    omega
  | ⟨2, _⟩ =>
    show win0_1.index n (2 : Fin 3) * 1024 + 1 * k.val = k.val
    omega

/-- Hidden unit f, column k of the second projection's block at point n is, of expert n / 4 % 8, hidden unit 1024 * (n % 4) + f, column k. -/
theorem blk_v1 (c : Dev nD) (n : Fin cfg0.N) (f k : Fin 1024) (e : Fin 8) (u : Fin 4096) (he : e.val = n.val / 4 % 8)
    (hu : u.val = f.val + 1024 * (n.val % 4)) :
    iblk m c 2 n (ix3 0 f k) = m ((c : Thread nD τ).loc main_arg5) (ix3 e u k) := by
  obtain ⟨-, -, -, -, -, e0, e1, e2, -⟩ := idx_facts n
  show V m c main_v22 (((cfg0.win 2).blk n).view.emb (ix3 0 f k)) = _
  refine (congrFun (V_v1 m c) _).trans ?_
  refine congrArg _ (funext fun a => Fin.ext ?_)
  match a with
  | ⟨0, _⟩ =>
    show win0_2.index n (0 : Fin 3) * 1 + 1 * 0 = e.val
    omega
  | ⟨1, _⟩ =>
    show win0_2.index n (1 : Fin 3) * 1024 + 1 * f.val = u.val
    omega
  | ⟨2, _⟩ =>
    show win0_2.index n (2 : Fin 3) * 1024 + 1 * k.val = k.val
    omega

/-- Hidden unit f, model column k of the output weights' block at point n is, of expert n / 4 % 8, hidden unit 1024 * (n % 4) + f, model column k. -/
theorem blk_w2 (c : Dev nD) (n : Fin cfg0.N) (f k : Fin 1024) (e : Fin 8) (u : Fin 4096) (he : e.val = n.val / 4 % 8)
    (hu : u.val = f.val + 1024 * (n.val % 4)) :
    iblk m c 3 n (ix3 0 f k) = m ((c : Thread nD τ).loc main_arg6) (ix3 e u k) := by
  obtain ⟨-, -, -, -, -, -, -, -, e0, e1, e2⟩ := idx_facts n
  show V m c main_v23 (((cfg0.win 3).blk n).view.emb (ix3 0 f k)) = _
  refine (congrFun (V_w2 m c) _).trans ?_
  refine congrArg _ (funext fun a => Fin.ext ?_)
  match a with
  | ⟨0, _⟩ =>
    show win0_3.index n (0 : Fin 3) * 1 + 1 * 0 = e.val
    omega
  | ⟨1, _⟩ =>
    show win0_3.index n (1 : Fin 3) * 1024 + 1 * f.val = u.val
    omega
  | ⟨2, _⟩ =>
    show win0_3.index n (2 : Fin 3) * 1024 + 1 * k.val = k.val
    omega

end Cert.Moe.Blk

end
-- ==== Proof.KernelValue.lean ====
/-
  What the kernel leaves in its output array, index by index.

  The grid has 256 points; the 32 consecutive points `32·q … 32·q + 31` share token tile `q` and walk through the eight
  experts and, inside each, the four tiles of hidden units. The input blocks of point `32·q + s` are: rows
  `512·q … 512·q + 511` of the activations, tile `s % 4` of expert `s / 4`'s three weight arrays, and that expert's
  gates for those rows. So the point's addend at `(r, h)` is piece `s` of the tiled accumulation for token `512·q + r`,
  and the array ends holding `kerOut`.
-/
import proofs.«161855_j16535624089676_1_alg».proof.Proof.KernelFold
import proofs.«161855_j16535624089676_1_alg».proof.Proof.Blocks
import proofs.«161855_j16535624089676_1_alg».proof.Proof.Gates

noncomputable section

open scoped BigOperators

namespace Cert.Moe.Ker

open Cert.KernelIdeal Cert.KernelIdeal.Gen Idealize.ShloMosaic Idealize.ShloMosaic.TcCoe Idealize.SL.Sem Idealize.ShloMosaic.ValueIdx

/-- An addend over blocks that are the stated rows of whole arrays is the gate times the tile's share. -/
theorem addend_eq_piece (x0 : Vec Ideal S512x1024 .bf16) (x1 x2 x3 : Vec Ideal S1x1024x1024 .bf16) (x4 : Vec Ideal S1x512x1 .f32)
    (g : TokExp.Idx → EReal) (x : TokHid.Idx → EReal) (w1 v1 w2 : ExpW.Idx → EReal)
    (r : Fin 512) (hh : Fin 1024) (t : Fin 4096) (e : Fin 8) (fi : Fin 4)
    (h4 : x4 (ix3 (0 : Fin 1) r (0 : Fin 1)) = g (ix2 t e))
    (h0 : ∀ k : Fin 1024, x0 (ix2 r k) = x (ix2 t k))
    (h1 : ∀ f k : Fin 1024, x1 (ix3 (0 : Fin 1) f k) = w1 (ix3 e (hid fi f) k))
    (h2 : ∀ f k : Fin 1024, x2 (ix3 (0 : Fin 1) f k) = v1 (ix3 e (hid fi f) k))
    (h3 : ∀ f : Fin 1024, x3 (ix3 (0 : Fin 1) f hh) = w2 (ix3 e (hid fi f) hh)) :
    addend x0 x1 x2 x3 x4 (ix2 r hh) = g (ix2 t e) * tile x w1 v1 w2 e fi t hh := by
  show x4 (ix3 (0 : Fin 1) r (0 : Fin 1)) * ∑ f : Fin 1024,
      (((∑ k : Fin 1024, x0 (ix2 r k) * x1 (ix3 (0 : Fin 1) f k)) * Ideal.logistic (∑ k : Fin 1024, x0 (ix2 r k) * x1 (ix3 (0 : Fin 1) f k)))
        * (∑ k : Fin 1024, x0 (ix2 r k) * x2 (ix3 (0 : Fin 1) f k))) * x3 (ix3 (0 : Fin 1) f hh) = _
  simp only [h4, h0, h1, h2, h3]
  rfl

variable (m : (ℓ : Loc nD τ sig) → Buf (Elt Ideal) ℓ)

/-- The addend of point `32·q + s` at `(r, h)` is piece `s` for token `512·q + r`. -/
theorem pointAdd_eq (c : Dev nD) (q : ℕ) (hq : q < 8) (s : ℕ) (hs : s < 32) (r : Fin 512) (hh : Fin 1024) (t : Fin 4096)
    (ht : t.val = 512 * q + r.val) :
    pointAdd m c (32 * q + s) (ix2 r hh)
      = piece (gates m c) (m ((c : Thread nD τ).loc main_arg0)) (m ((c : Thread nD τ).loc main_arg4))
          (m ((c : Thread nD τ).loc main_arg5)) (m ((c : Thread nD τ).loc main_arg6)) t hh s := by
  have hn : 32 * q + s < cfg0.N := by rw [show cfg0.N = 256 from N_0]; omega
  have ht' : t.val = 512 * ((⟨32 * q + s, hn⟩ : Fin cfg0.N).val / 32) + r.val := by
    show t.val = 512 * ((32 * q + s) / 32) + r.val; omega
  have he' : (⟨s / 4, by omega⟩ : Fin 8).val = (⟨32 * q + s, hn⟩ : Fin cfg0.N).val / 4 % 8 := by
    show s / 4 = (32 * q + s) / 4 % 8; omega
  have hu' : ∀ f : Fin 1024, (hid ⟨s % 4, by omega⟩ f).val = f.val + 1024 * ((⟨32 * q + s, hn⟩ : Fin cfg0.N).val % 4) := by
    intro f
    show f.val + 1024 * (s % 4) = f.val + 1024 * ((32 * q + s) % 4); omega
  unfold pointAdd piece
  rw [dif_pos hn, dif_pos hs]
  exact addend_eq_piece (iblk m c 0 ⟨32 * q + s, hn⟩) (iblk m c 1 ⟨32 * q + s, hn⟩) (iblk m c 2 ⟨32 * q + s, hn⟩)
    (iblk m c 3 ⟨32 * q + s, hn⟩) (iblk m c 4 ⟨32 * q + s, hn⟩) (gates m c) (m ((c : Thread nD τ).loc main_arg0))
    (m ((c : Thread nD τ).loc main_arg4)) (m ((c : Thread nD τ).loc main_arg5)) (m ((c : Thread nD τ).loc main_arg6))
    r hh t ⟨s / 4, by omega⟩ ⟨s % 4, by omega⟩
    (blk_gate m c ⟨32 * q + s, hn⟩ r t ⟨s / 4, by omega⟩ ht' he')
    (fun k => Cert.Moe.Blk.blk_x m c ⟨32 * q + s, hn⟩ r k t ht')
    (fun f k => Cert.Moe.Blk.blk_w1 m c ⟨32 * q + s, hn⟩ f k ⟨s / 4, by omega⟩ (hid ⟨s % 4, by omega⟩ f) he' (hu' f))
    (fun f k => Cert.Moe.Blk.blk_v1 m c ⟨32 * q + s, hn⟩ f k ⟨s / 4, by omega⟩ (hid ⟨s % 4, by omega⟩ f) he' (hu' f))
    (fun f => Cert.Moe.Blk.blk_w2 m c ⟨32 * q + s, hn⟩ f hh ⟨s / 4, by omega⟩ (hid ⟨s % 4, by omega⟩ f) he' (hu' f))

/-- THE KERNEL'S VALUE: the output array after the run, at `(t, h)`, is the tiled accumulation. -/
theorem G5_apply (c : Dev nD) (t : Fin 4096) (hh : Fin 1024) :
    Value.G5 m c (ix2 t hh)
      = kerOut (gates m c) (m ((c : Thread nD τ).loc main_arg0)) (m ((c : Thread nD τ).loc main_arg4))
          (m ((c : Thread nD τ).loc main_arg5)) (m ((c : Thread nD τ).loc main_arg6)) t hh := by
  have htl := t.isLt
  have hhl := hh.isLt
  have hq : Value.run5Of (ix2 t hh) = t.val / 512 := by
    show 1 * (t.val / 512 - 0) + 1 * (hh.val / 1024 - 0) = t.val / 512
    omega
  have hlt : 32 * Value.run5Of (ix2 t hh) + 31 < cfg0.N := by
    rw [hq, show cfg0.N = 256 from N_0]; omega
  have hl : Value.loc5Of (ix2 t hh) = ix2 (⟨t.val % 512, Nat.mod_lt _ (by decide)⟩ : Fin 512) hh := by
    funext a; apply Fin.ext
    match a with
    | ⟨0, _⟩ => rfl
    | ⟨1, _⟩ => show hh.val % 1024 = hh.val; omega
  unfold Value.G5
  rw [dif_pos hlt, fold_apply, hl]
  unfold kerOut
  refine congrArg _ (Finset.sum_congr rfl fun s hs => ?_)
  rw [hq]
  exact pointAdd_eq m c (t.val / 512) (by omega) s (Finset.mem_range.mp hs) _ hh t (by show t.val = 512 * (t.val / 512) + t.val % 512; omega)

end Cert.Moe.Ker

end
-- ==== Proof.lean ====
/-
  A dense mixture-of-experts layer with gated linear units: the tiled kernel against the expert-by-expert reference.

  For token `t` and model column `h` both programs compute `Σ_e g[t,e] · Σ_f glu[e,t,f] · w2[e,f,h]`, where `g` is the
  gate table (the expert weights scatter-added at the chosen experts) and `glu[e,t,f] = (p · logistic p) · q` with
  `p = Σ_k x[t,k]·w1[e,f,k]`, `q = Σ_k x[t,k]·v1[e,f,k]`. The reference adds the eight experts' whole outputs one after
  the other; the kernel walks, for each tile of 512 tokens, through the experts and the four tiles of 1024 hidden units
  of each, adding the gate times the tile's share to an accumulator that starts at zero. A change of float format is the
  identity over the extended reals, and the two matrix products are the same sums, so the two results differ only in
  how the sum is cut up: the hidden units re-indexed as (tile, offset), and the gate taken inside the sum over tiles —
  which is where the inputs' finiteness is used, since a factor moves inside a sum of extended reals when everything in
  sight is a real number (`Cert.Moe.kerOut_eq_refOut`).

  The kernel's result array as a function of the arguments is the generated value leg (the fold over each run of 32
  grid points) opened by the body's arithmetic at an index, the blocks read at an index and the fold unrolled
  (`Cert.Moe.Ker.G5_apply`); the reference's is its generated run read operation by operation
  (`Cert.Moe.Ref.ref_value`); the inputs are real numbers by the precondition (`Cert.Moe.Fin.real_of_pre`).
-/
import proofs.«161855_j16535624089676_1_alg».proof.Defs
import proofs.«161855_j16535624089676_1_alg».proof.Proof.Gen.Kernel.Frame
import proofs.«161855_j16535624089676_1_alg».proof.Proof.Gen.KernelIdeal.Value
import proofs.«161855_j16535624089676_1_alg».proof.Proof.Gen.Pre_finite_inputs
import proofs.«161855_j16535624089676_1_alg».proof.Proof.Gen.ReferenceIdeal.Run
import proofs.«161855_j16535624089676_1_alg».proof.Proof.Gen.ReferenceIdeal.Read
import proofs.«161855_j16535624089676_1_alg».proof.Proof.Spec
import proofs.«161855_j16535624089676_1_alg».proof.Proof.Law
import proofs.«161855_j16535624089676_1_alg».proof.Proof.Finite
import proofs.«161855_j16535624089676_1_alg».proof.Proof.RefRead
import proofs.«161855_j16535624089676_1_alg».proof.Proof.Gates
import proofs.«161855_j16535624089676_1_alg».proof.Proof.KernelValue
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The two result arrays are one function of the arguments: at `(t, h)` the reference's is the expert-by-expert
    accumulation, the kernel's the tiled one, of the same gate table and the same real inputs. -/
theorem result_eq (m : (ℓ : Loc Cert.KernelIdeal.nD Cert.KernelIdeal.τ Cert.KernelIdeal.sig) → Buf (Elt Ideal) ℓ)
    (hpre : Pre_KernelIdeal m) (c : Dev Cert.KernelIdeal.nD) (i : Cert.KernelIdeal.S4096x1024.Idx) :
    Cert.ReferenceIdeal.Read.val_main_v154 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) i
      = Cert.KernelIdeal.Value.G5 m c i := by
  obtain ⟨t, h, rfl⟩ : ∃ (t : Fin 4096) (h : Fin 1024), i = ix2 t h := ⟨i 0, i 1, eq_ix2 i⟩
  obtain ⟨r0, r2, r4, r5, r6⟩ := Cert.Moe.Fin.real_of_pre _ _ _ _ _ _ _ (hpre c)
  rw [Cert.Moe.Ref.ref_value, Cert.Moe.Ker.G5_apply]
  exact (Cert.Moe.kerOut_eq_refOut _ _ _ _ _ (Cert.Moe.Ker.gates_real m c r2) r0 r4 r5 r6 t h).symm

theorem algebraic_KernelIdeal_ReferenceIdeal : algebraic_KernelIdeal_ReferenceIdeal := by
  intro m ρ m' ρ' hpre hagree
  refine ⟨fun c => Cert.KernelIdeal.Value.G5 m c, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v154_eq]
  obtain ⟨a0, a1, a2, a3, a4, a5, a6⟩ := hagree c
  rw [a0, a2, a3, a4, a5, a6]
  exact funext fun i => result_eq m hpre c i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
